-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x5120 : Shape := ⟨2, ![2048, 5120]⟩
abbrev S5120 : Shape := ⟨1, ![5120]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x5120 : S_.BroadcastsInDim S2048x5120 (![] : Fin 0 → Fin S2048x5120.rank)
  reducesTo_S2048x5120_S_d0_1 : S2048x5120.ReducesTo [0, 1] S_
  bcast_S_S5120 : S_.BroadcastsInDim S5120 (![] : Fin 0 → Fin S5120.rank)
  reducesTo_S5120_S_d0 : S5120.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S5120 .f32) (main_arg5 : FVec F S1024 .f32) (main_arg6 : FVec F S1024 .f32) (main_arg7 : FVec F S1024 .f32) (main_v13 : IVec S_ 1) (main_v16 : IVec S2048x5120 1) : IVec S_ 1 :=
  let main_c_5 : IVec S_ 1 := constantI S_ 1 1#1
  let main_v17 : IVec S_ 1 := (fun x v => Host.reduce IntOp.andi x v reducesTo_S2048x5120_S_d0_1 h_S_) main_v16 main_c_5
  let main_v18 : IVec S_ 1 := andi main_v13 main_v17
  let main_v19 : FVec F S5120 .f32 := Host.absf main_arg4
  let main_cst_6 : FVec F S_ .f32 := constant S_ .f32 0x7F800000#32
  let main_v20 : FVec F S5120 .f32 := broadcastInDim S5120 ![] bcast_S_S5120 main_cst_6
  let main_v21 : IVec S5120 1 := cmpf .olt main_v19 main_v20
  let main_c_7 : IVec S_ 1 := constantI S_ 1 1#1
  let main_v22 : IVec S_ 1 := (fun x v => Host.reduce IntOp.andi x v reducesTo_S5120_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S2048x5120 .f32) (main_arg4 : FVec F S5120 .f32) (main_arg5 : FVec F S1024 .f32) (main_arg6 : FVec F S1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x5120 .f32 := Host.absf main_arg3
  let main_cst_4 : FVec F S_ .f32 := constant S_ .f32 0x7F800000#32
  let main_v15 : FVec F S2048x5120 .f32 := broadcastInDim S2048x5120 ![] bcast_S_S2048x5120 main_cst_4
  let main_v16 : IVec S2048x5120 1 := cmpf .olt main_v14 main_v15
  fn_part1 (F := F) main_arg4 main_arg5 main_arg6 main_arg7 main_v13 main_v16
-- ==== Kernel.lean ====
abbrev S16384x1024 : Shape := ⟨2, ![16384, 1024]⟩
abbrev S2048x5120 : Shape := ⟨2, ![2048, 5120]⟩
abbrev S5120 : Shape := ⟨1, ![5120]⟩
abbrev S1024 : Shape := ⟨1, ![1024]⟩
abbrev S1024x5120 : Shape := ⟨2, ![1024, 5120]⟩
abbrev S1x5120 : Shape := ⟨2, ![1, 5120]⟩
abbrev S1x1024 : Shape := ⟨2, ![1, 1024]⟩
abbrev S256x1024 : Shape := ⟨2, ![256, 1024]⟩
abbrev S256x5120 : Shape := ⟨2, ![256, 5120]⟩
abbrev S256 : Shape := ⟨1, ![256]⟩
abbrev S256x1 : Shape := ⟨2, ![256, 1]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x5120, .f32⟩
  | .hbm, ⟨4, _⟩ => ⟨S5120, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x5120, .f32⟩
  | .hbm, ⟨9, _⟩ => ⟨S1024x5120, .bf16⟩
  | .hbm, ⟨10, _⟩ => ⟨S1024x5120, .f32⟩
  | .hbm, ⟨11, _⟩ => ⟨S1024x5120, .bf16⟩
  | .hbm, ⟨12, _⟩ => ⟨S16384x1024, .bf16⟩
  | .hbm, ⟨13, _⟩ => ⟨S16384x1024, .bf16⟩
  | .hbm, ⟨14, _⟩ => ⟨S1x5120, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x5120, .bf16⟩
  | .local _ .vmem, ⟨7, _⟩ => ⟨S1024x5120, .bf16⟩
  | .local _ .vmem, ⟨8, _⟩ => ⟨S1x5120, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2048x5120_S1024x5120_0_0 : S2048x5120.Slices ![0, 0] S1024x5120
  bitsLt_bf16_f32 : FTy.bits .bf16 < FTy.bits .f32
  slices_S2048x5120_S1024x5120_1024_0 : S2048x5120.Slices ![1024, 0] S1024x5120
  shapeCasts_S5120_S1x5120 : S5120.ShapeCasts S1x5120
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S256x5120 : S1x5120.Broadcasts S256x5120
  slices_S256x5120_o0_0_S256x1024 : S256x5120.Slices ![0, 0] S256x1024
  slices_S256x5120_o0_1024_S256x1024 : S256x5120.Slices ![0, 1024] S256x1024
  slices_S256x5120_o0_2048_S256x1024 : S256x5120.Slices ![0, 2048] S256x1024
  slices_S256x5120_o0_3072_S256x1024 : S256x5120.Slices ![0, 3072] S256x1024
  slices_S256x5120_o0_4096_S256x1024 : S256x5120.Slices ![0, 4096] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  dot_S256x1024_S1024x5120_S256x5120_1_0_0_1_n_n_wf : DotDims.WF S256x1024 S1024x5120 S256x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .bf16 = 32 ∨ (Rect.block (s := S16384x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .bf16 = 32 ∨ (Rect.block (s := S16384x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x5120.size a ≤ S1024x5120.size a
  hwx0_3 : ∀ i : grid0.Coords, EltTy.bits .bf16 = 32 ∨ (Rect.block (s := S1024x5120) S1024x5120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x5120.size a ≤ S1024x5120.size a
  hwx0_4 : ∀ i : grid0.Coords, EltTy.bits .bf16 = 32 ∨ (Rect.block (s := S1024x5120) S1024x5120.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5120.size a ≤ S1x5120.size a
  hwx0_5 : ∀ i : grid0.Coords, EltTy.bits .f32 = 32 ∨ (Rect.block (s := S1x5120) S1x5120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S16384x1024.size a
  hwx0_10 : ∀ i : grid0.Coords, EltTy.bits .f32 = 32 ∨ (Rect.block (s := S16384x1024) S256x1024.size (cc0_transform_10 i) (hinb0_10 i)).WholeWords (EltTy.packing .f32)

variable [Facts₀]

def dot_S256x1024_S1024x5120_S256x5120_1_0_0_1_n_n : DotDims S256x1024 S1024x5120 S256x5120 where
  lhsContracting := [1]
  rhsContracting := [0]
  lhsNonContracting := [0]
  rhsNonContracting := [1]
  lhsBatch := []
  rhsBatch := []
  wf := dot_S256x1024_S1024x5120_S256x5120_1_0_0_1_n_n_wf

abbrev win0_0 : Pipeline.Window sig grid0 :=
  Pipeline.Window.ofSpec (Memref.whole main_v4) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x5120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x5120 : Shape := ⟨2, ![2048, 5120]⟩
abbrev S5120 : Shape := ⟨1, ![5120]⟩
abbrev S1024 : Shape := ⟨1, ![1024]⟩
abbrev S16384x2048 : Shape := ⟨2, ![16384, 2048]⟩
abbrev S16384x5120 : Shape := ⟨2, ![16384, 5120]⟩
abbrev S1x5120 : Shape := ⟨2, ![1, 5120]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x5120, .f32⟩
  | .hbm, ⟨4, _⟩ => ⟨S5120, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16384x2048, .f32⟩
  | .hbm, ⟨9, _⟩ => ⟨S16384x5120, .f32⟩
  | .hbm, ⟨10, _⟩ => ⟨S1x5120, .f32⟩
  | .hbm, ⟨11, _⟩ => ⟨S16384x5120, .f32⟩
  | .hbm, ⟨12, _⟩ => ⟨S16384x5120, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .i32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S16384x1024, .f32⟩
  | .hbm, ⟨107, _⟩ => ⟨S16384x1024, .f32⟩
  | .hbm, ⟨108, _⟩ => ⟨S1x1024, .f32⟩
  | .hbm, ⟨109, _⟩ => ⟨S16384x1024, .f32⟩
  | .hbm, ⟨110, _⟩ => ⟨S16384x1024, .f32⟩
  | .hbm, ⟨111, _⟩ => ⟨S1x1024, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S_, .f32⟩
  | .hbm, ⟨117, _⟩ => ⟨S16384x1024, .f32⟩
  | .hbm, ⟨118, _⟩ => ⟨S16384x1024, .f32⟩
  | .hbm, ⟨119, _⟩ => ⟨S_, .f32⟩
  | .hbm, ⟨120, _⟩ => ⟨S16384x1024, .f32⟩
  | .hbm, ⟨121, _⟩ => ⟨S16384x1024, .f32⟩
  | .hbm, ⟨122, _⟩ => ⟨S16384x1024, .f32⟩
  | .hbm, ⟨123, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_cst_3 : Ref sig .tc := ⟨.hbm, 94, rfl⟩
abbrev main_call0_v13 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_12 : Ref sig .tc := ⟨.hbm, 116, rfl⟩
abbrev main_v72 : Ref sig .tc := ⟨.hbm, 117, rfl⟩
abbrev main_v73 : Ref sig .tc := ⟨.hbm, 118, rfl⟩
abbrev main_cst_13 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S5120_S1x5120_1 : S5120.BroadcastsInDim S1x5120 (![1] : Fin 1 → Fin S1x5120.rank)
  bcast_S1x5120_S16384x5120_0_1 : S1x5120.BroadcastsInDim S16384x5120 (![0, 1] : Fin 2 → Fin S16384x5120.rank)
  slices_S16384x5120_S16384x1024_0_0 : S16384x5120.Slices ![0, 0] S16384x1024
  slices_S16384x5120_S16384x1024_0_1024 : S16384x5120.Slices ![0, 1024] S16384x1024
  slices_S16384x5120_S16384x1024_0_2048 : S16384x5120.Slices ![0, 2048] S16384x1024
  slices_S16384x5120_S16384x1024_0_3072 : S16384x5120.Slices ![0, 3072] S16384x1024
  slices_S16384x5120_S16384x1024_0_4096 : S16384x5120.Slices ![0, 4096] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  dot_S16384x2048_S2048x5120_S16384x5120_1_0_0_1_n_n_wf : DotDims.WF S16384x2048 S2048x5120 S16384x5120 [1] [0] [0] [1] [] []

variable [Facts₀]

def dot_S16384x2048_S2048x5120_S16384x5120_1_0_0_1_n_n : DotDims S16384x2048 S2048x5120 S16384x5120 where
  lhsContracting := [1]
  rhsContracting := [0]
  lhsNonContracting := [0]
  rhsNonContracting := [1]
  lhsBatch := []
  rhsBatch := []
  wf := dot_S16384x2048_S2048x5120_S16384x5120_1_0_0_1_n_n_wf

class Facts : Prop extends Facts₀ where

variable [Facts]
-- ==== Proof.Spec.lean ====
/-
  One row of the gated recurrent cell, over the extended reals.

  A row has 1024 features.  From the row `xr` of the input, the row `hr` of the previous hidden state and the row
  `cr` of the previous cell state, with weights `W1`, `W2` (each 1024 × 5120), bias `b` (5120), retention `ρ`,
  scale `γ` and shift `β` (each 1024):

  * the pre-activation of column `c` is  pre c = (Σₖ xr k · W1 k c + Σₖ hr k · W2 k c) + b c;  the 5120 columns are
    five bands of 1024, one per gate — forget (0), input (1), output (2), candidate (3), mix (4);
  * with σ the logistic function, f = σ(pre band 0), i = σ(pre band 1), o = σ(pre band 2), g = tanh(pre band 3),
    m = σ(pre band 4), the new cell state is  c' = m · ((f · c + i · g) · ρ + (1 − ρ) · c) + (1 − m) · c;
  * μ = (Σ_q o q) / 1024 and v = (Σ_q (o q − μ)²) / 1024 are the output gate's mean and variance over the row, and
    the new hidden state is  h' = σ((o − μ) · rsqrt(v + ε) · γ + β) · tanh c'.

  The three constants 1, 1024 and ε are kept as the 32-bit patterns the programs print, so that no pattern is ever
  evaluated.  The one law of algebra needed later is here too: a sum over 2048 indices is the sum over the first 1024
  plus the sum over the last 1024, in any additive commutative monoid — so it holds of extended reals without any
  finiteness assumption.
-/
import Idealize.ShloMosaic.PureOps.Ideal

noncomputable section

open scoped BigOperators

namespace GatedCell

open Idealize.ShloMosaic

/-- Column `q` of band `g` among the 5 · 1024 columns. -/
def col (g : Fin 5) (q : Fin 1024) : Fin 5120 :=
  ⟨g.val * 1024 + q.val, by have := g.isLt; have := q.isLt; omega⟩

/-- The pattern of 1.0. -/
abbrev one : EReal := Ideal.ofBits .f32 0x3F800000#32
/-- The pattern of 1024.0, the row length. -/
abbrev rowLen : EReal := Ideal.ofBits .f32 0x44800000#32
/-- The pattern of the variance's offset ε. -/
abbrev eps : EReal := Ideal.ofBits .f32 0x3727C5AC#32

section row

variable (xr hr cr : Fin 1024 → EReal) (W1 W2 : Fin 1024 → Fin 5120 → EReal) (b : Fin 5120 → EReal)
  (gamma beta ret : Fin 1024 → EReal)

/-- The pre-activation of column `c`. -/
def pre (c : Fin 5120) : EReal :=
  (∑ k : Fin 1024, xr k * W1 k c + ∑ k : Fin 1024, hr k * W2 k c) + b c

/-- The new cell state at feature `q`. -/
def cnew (q : Fin 1024) : EReal :=
  Ideal.logistic (pre xr hr W1 W2 b (col 4 q))
      * ((Ideal.logistic (pre xr hr W1 W2 b (col 0 q)) * cr q
            + Ideal.logistic (pre xr hr W1 W2 b (col 1 q)) * Ideal.tanh (pre xr hr W1 W2 b (col 3 q))) * ret q
          + (one - ret q) * cr q)
    + (one - Ideal.logistic (pre xr hr W1 W2 b (col 4 q))) * cr q

/-- The output gate at feature `q`. -/
def og (q : Fin 1024) : EReal := Ideal.logistic (pre xr hr W1 W2 b (col 2 q))

/-- The output gate's mean over the row. -/
def mu : EReal := Ideal.div (∑ q : Fin 1024, og xr hr W1 W2 b q) rowLen

/-- The output gate's variance over the row. -/
def var : EReal :=
  Ideal.div (∑ q : Fin 1024, (og xr hr W1 W2 b q - mu xr hr W1 W2 b) * (og xr hr W1 W2 b q - mu xr hr W1 W2 b)) rowLen

/-- The normalized output gate, scaled and shifted, at feature `q`. -/
def ln (q : Fin 1024) : EReal :=
  (og xr hr W1 W2 b q - mu xr hr W1 W2 b) * Ideal.rsqrt (var xr hr W1 W2 b + eps) * gamma q + beta q

/-- The new hidden state at feature `q`. -/
def hnew (q : Fin 1024) : EReal :=
  Ideal.logistic (ln xr hr W1 W2 b gamma beta q) * Ideal.tanh (cnew xr hr cr W1 W2 b ret q)

/-- The new hidden state from its ingredients: the output gate's value `o`, the row's sum `s1` of the output gate, the
    row's sum `s2` of squared deviations from the mean, the scale `g`, the shift `b` and the new cell state `cn`. -/
def hiddenFrom (o s1 s2 g b cn : EReal) : EReal :=
  Ideal.logistic ((o - Ideal.div s1 rowLen) * Ideal.rsqrt (Ideal.div s2 rowLen + eps) * g + b) * Ideal.tanh cn

theorem hnew_eq (q : Fin 1024) :
    hnew xr hr cr W1 W2 b gamma beta ret q
      = hiddenFrom (og xr hr W1 W2 b q) (∑ q : Fin 1024, og xr hr W1 W2 b q)
          (∑ q : Fin 1024, (og xr hr W1 W2 b q - mu xr hr W1 W2 b) * (og xr hr W1 W2 b q - mu xr hr W1 W2 b))
          (gamma q) (beta q) (cnew xr hr cr W1 W2 b ret q) := rfl

theorem hiddenFrom_congr {o g b cn s1 s2 s1' s2' : EReal} (h1 : s1 = s1') (h2 : s2 = s2') :
    hiddenFrom o s1 s2 g b cn = hiddenFrom o s1' s2' g b cn := by rw [h1, h2]

end row

/-- A sum over 2048 indices is the sum over the first 1024 plus the sum over the last 1024. -/
theorem sum_halves {M : Type*} [AddCommMonoid M] (f : Fin 2048 → M) :
    ∑ k : Fin 2048, f k
      = ∑ k : Fin 1024, f ⟨k.val, by have := k.isLt; omega⟩ + ∑ k : Fin 1024, f ⟨1024 + k.val, by have := k.isLt; omega⟩ :=
  Fin.sum_univ_add (a := 1024) (b := 1024) (f : Fin (1024 + 1024) → M)

end GatedCell

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.BlockValue.lean ====
/-
  What the kernel's body leaves in its two output blocks, read one element at a time.

  At a grid point the body sees 256 rows of x, h and the previous cell state, both halves of the weight matrix, the
  bias as a row, and the scale, shift and retention as rows.  Its two stores hold the new hidden state and the new cell
  state of those 256 rows.  Row `p`, feature `q` of each block is the row formula of the specification applied to row
  `p` of the loaded blocks:

  * the two matrix products into a zero accumulator are the sums Σₖ x(p,k)·W1(k,c) and Σₖ h(p,k)·W2(k,c), and the bias row
    copied down the rows adds b(c): the pre-activation `pre`;
  * a band of 1024 columns cut from the pre-activations at column offset 1024·g reads column 1024·g + q;
  * the sum of a block along its rows' 1024 entries is Σ_q over that row, the column it is cast to and copied along reads
    that row's sum everywhere in the row: this gives the mean, the deviations, and the variance of the output gate.
-/
import proofs.«151947_j82867099009371_2_alg».proof.Proof.Gen.KernelIdeal.Value
import proofs.«151947_j82867099009371_2_alg».proof.Proof.Spec
import proofs.«151947_j82867099009371_2_alg».proof.Proof.LibDotRows
import proofs.«151947_j82867099009371_2_alg».proof.Proof.LibLayout
import proofs.«151947_j82867099009371_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.KernelIdeal.Value Idealize.ShloMosaic Idealize.ShloMosaic.ValueIdx

/-! ## Where a block element reads each operand -/

theorem ix9_0_eq (p : Fin 256) (q : Fin 1024) : ix9_0 (ix2 p q) = ix2 p (GatedCell.col 2 q) := by
  funext a; apply Fin.ext
  match a with
  | ⟨0, _⟩ => rfl
  | ⟨1, _⟩ => show q.val + 2048 = 2 * 1024 + q.val; omega

theorem ix9_1_eq (p : Fin 256) (q : Fin 1024) : ix9_1 (ix2 p q) = ix1 p := by
  funext a; apply Fin.ext
  match a with
  | ⟨0, _⟩ => rfl

theorem ix9_2_eq (p : Fin 256) (q : Fin 1024) : ix9_2 (ix2 p q) = ix1 p := by
  funext a; apply Fin.ext
  match a with
  | ⟨0, _⟩ => rfl

theorem ix9_3_eq (p : Fin 256) (q : Fin 1024) : ix9_3 (ix2 p q) = ix2 (0 : Fin 1) q := by
  funext a; apply Fin.ext
  match a with
  | ⟨0, _⟩ => rfl
  | ⟨1, _⟩ => rfl

theorem ix9_4_eq (p : Fin 256) (q : Fin 1024) : ix9_4 (ix2 p q) = ix2 (0 : Fin 1) q := by
  funext a; apply Fin.ext
  match a with
  | ⟨0, _⟩ => rfl
  | ⟨1, _⟩ => rfl

theorem ix9_5_eq (p : Fin 256) (q : Fin 1024) : ix9_5 (ix2 p q) = ix2 p (GatedCell.col 4 q) := by
  funext a; apply Fin.ext
  match a with
  | ⟨0, _⟩ => rfl
  | ⟨1, _⟩ => show q.val + 4096 = 4 * 1024 + q.val; omega

theorem ix9_6_eq (p : Fin 256) (q : Fin 1024) : ix9_6 (ix2 p q) = ix2 p (GatedCell.col 0 q) := by
  funext a; apply Fin.ext
  match a with
  | ⟨0, _⟩ => rfl
  | ⟨1, _⟩ => show q.val = 0 * 1024 + q.val; omega

theorem ix9_7_eq (p : Fin 256) (q : Fin 1024) : ix9_7 (ix2 p q) = ix2 p q := by
  funext a; apply Fin.ext
  match a with
  | ⟨0, _⟩ => rfl
  | ⟨1, _⟩ => rfl

theorem ix9_8_eq (p : Fin 256) (q : Fin 1024) : ix9_8 (ix2 p q) = ix2 p (GatedCell.col 1 q) := by
  funext a; apply Fin.ext
  match a with
  | ⟨0, _⟩ => rfl
  | ⟨1, _⟩ => show q.val + 1024 = 1 * 1024 + q.val; omega

theorem ix9_9_eq (p : Fin 256) (q : Fin 1024) : ix9_9 (ix2 p q) = ix2 p (GatedCell.col 3 q) := by
  funext a; apply Fin.ext
  match a with
  | ⟨0, _⟩ => rfl
  | ⟨1, _⟩ => show q.val + 3072 = 3 * 1024 + q.val; omega

theorem ix9_10_eq (p : Fin 256) (q : Fin 1024) : ix9_10 (ix2 p q) = ix2 (0 : Fin 1) q := by
  funext a; apply Fin.ext
  match a with
  | ⟨0, _⟩ => rfl
  | ⟨1, _⟩ => rfl

theorem ix9_11_eq (p : Fin 256) (q : Fin 1024) : ix9_11 (ix2 p q) = ix2 (0 : Fin 1) q := by
  funext a; apply Fin.ext
  match a with
  | ⟨0, _⟩ => rfl
  | ⟨1, _⟩ => rfl

theorem ix9_12_eq (p : Fin 256) (q : Fin 1024) : ix9_12 (ix2 p q) = ix2 p q := by
  funext a; apply Fin.ext
  match a with
  | ⟨0, _⟩ => rfl
  | ⟨1, _⟩ => rfl

theorem ix9_13_eq (p : Fin 256) (q : Fin 1024) : ix9_13 (ix2 p q) = ix2 p (GatedCell.col 4 q) := by
  funext a; apply Fin.ext
  match a with
  | ⟨0, _⟩ => rfl
  | ⟨1, _⟩ => show q.val + 4096 = 4 * 1024 + q.val; omega

theorem ix9_14_eq (p : Fin 256) (q : Fin 1024) : ix9_14 (ix2 p q) = ix2 p q := by
  funext a; apply Fin.ext
  match a with
  | ⟨0, _⟩ => rfl
  | ⟨1, _⟩ => rfl

theorem ix10_0_eq (p : Fin 256) (q : Fin 1024) : ix10_0 (ix2 p q) = ix2 p (GatedCell.col 4 q) := by
  funext a; apply Fin.ext
  match a with
  | ⟨0, _⟩ => rfl
  | ⟨1, _⟩ => show q.val + 4096 = 4 * 1024 + q.val; omega

theorem ix10_1_eq (p : Fin 256) (q : Fin 1024) : ix10_1 (ix2 p q) = ix2 p (GatedCell.col 0 q) := by
  funext a; apply Fin.ext
  match a with
  | ⟨0, _⟩ => rfl
  | ⟨1, _⟩ => show q.val = 0 * 1024 + q.val; omega

theorem ix10_2_eq (p : Fin 256) (q : Fin 1024) : ix10_2 (ix2 p q) = ix2 p q := by
  funext a; apply Fin.ext
  match a with
  | ⟨0, _⟩ => rfl
  | ⟨1, _⟩ => rfl

theorem ix10_3_eq (p : Fin 256) (q : Fin 1024) : ix10_3 (ix2 p q) = ix2 p (GatedCell.col 1 q) := by
  funext a; apply Fin.ext
  match a with
  | ⟨0, _⟩ => rfl
  | ⟨1, _⟩ => show q.val + 1024 = 1 * 1024 + q.val; omega

theorem ix10_4_eq (p : Fin 256) (q : Fin 1024) : ix10_4 (ix2 p q) = ix2 p (GatedCell.col 3 q) := by
  funext a; apply Fin.ext
  match a with
  | ⟨0, _⟩ => rfl
  | ⟨1, _⟩ => show q.val + 3072 = 3 * 1024 + q.val; omega

theorem ix10_5_eq (p : Fin 256) (q : Fin 1024) : ix10_5 (ix2 p q) = ix2 (0 : Fin 1) q := by
  funext a; apply Fin.ext
  match a with
  | ⟨0, _⟩ => rfl
  | ⟨1, _⟩ => rfl

theorem ix10_6_eq (p : Fin 256) (q : Fin 1024) : ix10_6 (ix2 p q) = ix2 (0 : Fin 1) q := by
  funext a; apply Fin.ext
  match a with
  | ⟨0, _⟩ => rfl
  | ⟨1, _⟩ => rfl

theorem ix10_7_eq (p : Fin 256) (q : Fin 1024) : ix10_7 (ix2 p q) = ix2 p q := by
  funext a; apply Fin.ext
  match a with
  | ⟨0, _⟩ => rfl
  | ⟨1, _⟩ => rfl

theorem ix10_8_eq (p : Fin 256) (q : Fin 1024) : ix10_8 (ix2 p q) = ix2 p (GatedCell.col 4 q) := by
  funext a; apply Fin.ext
  match a with
  | ⟨0, _⟩ => rfl
  | ⟨1, _⟩ => show q.val + 4096 = 4 * 1024 + q.val; omega

theorem ix10_9_eq (p : Fin 256) (q : Fin 1024) : ix10_9 (ix2 p q) = ix2 p q := by
  funext a; apply Fin.ext
  match a with
  | ⟨0, _⟩ => rfl
  | ⟨1, _⟩ => rfl

/-! ## The loaded blocks as rows, matrices and vectors -/

/-- Row `p` of a 256 × 1024 block. -/
abbrev rowOf {φ : FTy} (P : FVec Ideal S256x1024 φ) (p : Fin 256) : Fin 1024 → EReal := fun k => P (ix2 p k)
/-- A 1024 × 5120 block as a matrix. -/
abbrev matOf (P : FVec Ideal S1024x5120 .bf16) : Fin 1024 → Fin 5120 → EReal := fun k c => P (ix2 k c)
/-- The one row of a 1 × 5120 block. -/
abbrev biasOf (P : FVec Ideal S1x5120 .f32) : Fin 5120 → EReal := fun c => P (ix2 (0 : Fin 1) c)
/-- The one row of a 1 × 1024 block. -/
abbrev vecOf (P : FVec Ideal S1x1024 .f32) : Fin 1024 → EReal := fun q => P (ix2 (0 : Fin 1) q)

section gates

variable (P0 : FVec Ideal S256x1024 .bf16) (P1 : FVec Ideal S1024x5120 .bf16) (P2 : FVec Ideal S256x1024 .bf16)
  (P3 : FVec Ideal S1024x5120 .bf16) (P4 : FVec Ideal S1x5120 .f32)

/-- The pre-activations' block at `(p, c)` is the specification's `pre` of row `p`. -/
theorem gates_apply (p : Fin 256) (c : Fin 5120) :
    k0_pay3 (F := Ideal) P0 P1 P2 P3 P4 (ix2 p c)
      = GatedCell.pre (rowOf P0 p) (rowOf P2 p) (matOf P1) (matOf P3) (biasOf P4) c := by
  unfold k0_pay3 GatedCell.pre
  simp only [shapeCast_self]
  have e1 : matmul dot_S256x1024_S1024x5120_S256x5120_1_0_0_1_n_n none P0 P1 (constant S256x5120 .f32 0x00000000#32) (ix2 p c)
      = ∑ k : Fin 1024, P0 (ix2 p k) * P1 (ix2 k c) :=
    matmul_zero_rows dot_S256x1024_S1024x5120_S256x5120_1_0_0_1_n_n none rfl rfl (fun _ _ => rfl) (fun _ _ => rfl)
      (fun _ _ => rfl) (fun _ _ => rfl) P0 P1 p c
  have e2 : matmul dot_S256x1024_S1024x5120_S256x5120_1_0_0_1_n_n none P2 P3 (constant S256x5120 .f32 0x00000000#32) (ix2 p c)
      = ∑ k : Fin 1024, P2 (ix2 p k) * P3 (ix2 k c) :=
    matmul_zero_rows dot_S256x1024_S1024x5120_S256x5120_1_0_0_1_n_n none rfl rfl (fun _ _ => rfl) (fun _ _ => rfl)
      (fun _ _ => rfl) (fun _ _ => rfl) P2 P3 p c
  rw [addf_apply, addf_apply, e1, e2, broadcastTo_1b_ab_apply]

end gates

section layout

/-- The sum along the rows of a 256 × 1024 block, read at row `p`. -/
theorem rowSum_apply (src : FVec Ideal S256x1024 .f32) (h : S256x1024.Reduces [1] S256) (hφ : FKind.Formats .f32)
    (hacc : (0x00000000#32 : BitVec FTy.f32.bits) = FKind.add.neutral .f32 hφ) (p : Fin 256) :
    multiReduction .add [1] S256 src 0x00000000#32 h hφ hacc (ix1 p) = ∑ k : Fin 1024, src (ix2 p k) := by
  refine (Ideal.multiReduction_add_single src 0x00000000#32 h hφ hacc (ix1 p)).trans ?_
  show ∑ k : Fin 1024, src (h.lift (ix1 p) k) = _
  exact Finset.sum_congr rfl fun k _ => congrArg src (lift_last_ix1 h p k)

/-- The logistic function of a block, element by element. -/
theorem logistic_apply {s : Shape} (v : FVec Ideal s .f32) (i : s.Idx) : logistic v i = Ideal.logistic (v i) := rfl

/-- The output gate's band of the pre-activations, columns 2048 … 3071, read at `(p, q)`. -/
theorem oband_apply (G : FVec Ideal S256x5120 .f32) (hs : S256x5120.Slices ![0, 2048] S256x1024) (p : Fin 256) (q : Fin 1024) :
    extractStridedSlice S256x1024 ![0, 2048] G hs (ix2 p q) = G (ix2 p (GatedCell.col 2 q)) :=
  slice2_axis1_apply 2048 G hs p q (GatedCell.col 2 q) rfl

/-- A block minus its rows' sums over a constant, the quotient cast to a column and copied along the row. -/
theorem dev_apply (o : FVec Ideal S256x1024 .f32) (s : FVec Ideal S256 .f32) (w : BitVec 32) (hc : S256.ShapeCasts S256x1)
    (hb : S256x1.Broadcasts S256x1024) (p : Fin 256) (q : Fin 1024) :
    subf o (broadcastTo S256x1024 (divf (shapeCast S256x1 s hc) (broadcast S256x1 (Scalar.ofBits (F := Ideal) .f32 w))) hb) (ix2 p q)
      = o (ix2 p q) - Ideal.div (s (ix1 p)) (Ideal.ofBits .f32 w) := by
  rw [subf_apply, broadcastTo_a1_ab_apply, divf_apply, shapeCast_a_a1_apply, broadcast_apply]
  rfl

end layout

section blocks

variable (P0 : FVec Ideal S256x1024 .bf16) (P1 : FVec Ideal S1024x5120 .bf16) (P2 : FVec Ideal S256x1024 .bf16)
  (P3 : FVec Ideal S1024x5120 .bf16) (P4 : FVec Ideal S1x5120 .f32)

/-- The new cell state's block at `(p, q)` is the specification's `cnew` of row `p`. -/
theorem cell_block (P5 : FVec Ideal S256x1024 .f32) (P6 : FVec Ideal S1x1024 .f32) (p : Fin 256) (q : Fin 1024) :
    E10 (F := Ideal) P0 P1 P2 P3 P4 P5 P6 (ix2 p q)
      = GatedCell.cnew (rowOf P0 p) (rowOf P2 p) (rowOf P5 p) (matOf P1) (matOf P3) (biasOf P4) (vecOf P6) q := by
  dsimp only [E10]
  rw [ix10_0_eq, ix10_1_eq, ix10_2_eq, ix10_3_eq, ix10_4_eq, ix10_5_eq, ix10_6_eq, ix10_7_eq, ix10_8_eq, ix10_9_eq]
  simp only [gates_apply]
  rfl

/-- The new hidden state's block at `(p, q)` is the specification's `hnew` of row `p`. -/
theorem hidden_block (P5 P6 : FVec Ideal S1x1024 .f32) (P7 : FVec Ideal S256x1024 .f32) (P8 : FVec Ideal S1x1024 .f32)
    (p : Fin 256) (q : Fin 1024) :
    E9 (F := Ideal) P0 P1 P2 P3 P4 P5 P6 P7 P8 (ix2 p q)
      = GatedCell.hnew (rowOf P0 p) (rowOf P2 p) (rowOf P7 p) (matOf P1) (matOf P3) (biasOf P4) (vecOf P5) (vecOf P6)
          (vecOf P8) q := by
  dsimp only [E9]
  rw [ix9_0_eq, ix9_1_eq, ix9_2_eq, ix9_3_eq, ix9_4_eq, ix9_5_eq, ix9_6_eq, ix9_7_eq, ix9_8_eq, ix9_9_eq, ix9_10_eq,
    ix9_11_eq, ix9_12_eq, ix9_13_eq, ix9_14_eq]
  simp only [gates_apply]
  have hog : ∀ k : Fin 1024,
      logistic (extractStridedSlice S256x1024 ![0, 2048] (k0_pay3 (F := Ideal) P0 P1 P2 P3 P4) slices_S256x5120_o0_2048_S256x1024)
          (ix2 p k)
        = GatedCell.og (rowOf P0 p) (rowOf P2 p) (matOf P1) (matOf P3) (biasOf P4) k := fun k => by
    rw [logistic_apply, oband_apply, gates_apply]; rfl
  have hs1 : ∀ (src : FVec Ideal S256x1024 .f32) (h : S256x1024.Reduces [1] S256) (hφ : FKind.Formats .f32)
      (hacc : (0x00000000#32 : BitVec FTy.f32.bits) = FKind.add.neutral .f32 hφ),
      (∀ k, src (ix2 p k) = GatedCell.og (rowOf P0 p) (rowOf P2 p) (matOf P1) (matOf P3) (biasOf P4) k) →
      multiReduction .add [1] S256 src 0x00000000#32 h hφ hacc (ix1 p)
        = ∑ k : Fin 1024, GatedCell.og (rowOf P0 p) (rowOf P2 p) (matOf P1) (matOf P3) (biasOf P4) k :=
    fun src h hφ hacc hk => (rowSum_apply src h hφ hacc p).trans (Finset.sum_congr rfl fun k _ => hk k)
  rw [GatedCell.hnew_eq]
  refine GatedCell.hiddenFrom_congr (hs1 _ _ _ _ hog) ?_
  refine (rowSum_apply _ _ _ _ p).trans (Finset.sum_congr rfl fun k _ => ?_)
  rw [mulf_apply, dev_apply, hog k]
  exact congrArg₂ (fun a b : EReal => a * b)
    (congrArg (fun s : EReal => GatedCell.og (rowOf P0 p) (rowOf P2 p) (matOf P1) (matOf P3) (biasOf P4) k - Ideal.div s GatedCell.rowLen)
      (hs1 _ _ _ _ hog))
    (congrArg (fun s : EReal => GatedCell.og (rowOf P0 p) (rowOf P2 p) (matOf P1) (matOf P3) (biasOf P4) k - Ideal.div s GatedCell.rowLen)
      (hs1 _ _ _ _ hog))

end blocks

end Cert.KernelIdeal.BlockValue

end
-- ==== Proof.ArraySpec.lean ====
/-
  The two results as whole arrays.

  The cell acts on each of the 16384 rows by itself.  Row `r` of the new cell state and of the new hidden state is the
  row formula of the specification applied to row `r` of x, h and the previous cell state, with the upper half of the
  weight matrix (rows 0 … 1023, which meet x) and its lower half (rows 1024 … 2047, which meet h).
-/
import proofs.«151947_j82867099009371_2_alg».proof.Proof.Spec
import Idealize.ShloMosaic.Lib.ValueIdx

noncomputable section

namespace GatedCell

open Idealize.ShloMosaic Idealize.ShloMosaic.ValueIdx

/-- A matrix of extended reals. -/
abbrev Mat (a b : ℕ) : Type := (⟨2, ![a, b]⟩ : Shape).Idx → EReal
/-- A vector of extended reals. -/
abbrev Vect (a : ℕ) : Type := (⟨1, ![a]⟩ : Shape).Idx → EReal

/-- Row `r` of a matrix with 1024 columns. -/
def rowAt {n : ℕ} (x : Mat n 1024) (r : Fin n) : Fin 1024 → EReal := fun k => x (ix2 r k)
/-- The upper half of the weight matrix: rows 0 … 1023. -/
def upper (W : Mat 2048 5120) : Fin 1024 → Fin 5120 → EReal :=
  fun k c => W (ix2 ⟨k.val, by have := k.isLt; omega⟩ c)
/-- The lower half of the weight matrix: rows 1024 … 2047. -/
def lower (W : Mat 2048 5120) : Fin 1024 → Fin 5120 → EReal :=
  fun k c => W (ix2 ⟨1024 + k.val, by have := k.isLt; omega⟩ c)
/-- A vector's entries. -/
def entries {n : ℕ} (v : Vect n) : Fin n → EReal := fun q => v (ix1 q)

/-- The new cell state of all rows, at row `r` and feature `q`. -/
def cellAt (x h cp : Mat 16384 1024) (W : Mat 2048 5120) (b : Vect 5120) (ret : Vect 1024) (r : Fin 16384) (q : Fin 1024) :
    EReal :=
  cnew (rowAt x r) (rowAt h r) (rowAt cp r) (upper W) (lower W) (entries b) (entries ret) q

/-- The new hidden state of all rows, at row `r` and feature `q`. -/
def hiddenAt (x h cp : Mat 16384 1024) (W : Mat 2048 5120) (b : Vect 5120) (gamma beta ret : Vect 1024) (r : Fin 16384)
    (q : Fin 1024) : EReal :=
  hnew (rowAt x r) (rowAt h r) (rowAt cp r) (upper W) (lower W) (entries b) (entries gamma) (entries beta) (entries ret) q

/-- The new cell state as an array. -/
def cellArr (x h cp : Mat 16384 1024) (W : Mat 2048 5120) (b : Vect 5120) (ret : Vect 1024) : Mat 16384 1024 :=
  fun i => cellAt x h cp W b ret (i 0) (i 1)

/-- The new hidden state as an array. -/
def hiddenArr (x h cp : Mat 16384 1024) (W : Mat 2048 5120) (b : Vect 5120) (gamma beta ret : Vect 1024) : Mat 16384 1024 :=
  fun i => hiddenAt x h cp W b gamma beta ret (i 0) (i 1)

theorem cellArr_apply (x h cp : Mat 16384 1024) (W : Mat 2048 5120) (b : Vect 5120) (ret : Vect 1024) (r : Fin 16384)
    (q : Fin 1024) : cellArr x h cp W b ret (ix2 r q) = cellAt x h cp W b ret r q := rfl

theorem hiddenArr_apply (x h cp : Mat 16384 1024) (W : Mat 2048 5120) (b : Vect 5120) (gamma beta ret : Vect 1024)
    (r : Fin 16384) (q : Fin 1024) : hiddenArr x h cp W b gamma beta ret (ix2 r q) = hiddenAt x h cp W b gamma beta ret r q := rfl

end GatedCell

end
-- ==== Proof.KernelArray.lean ====
/-
  From the blocks to the whole arrays.

  The grid has 64 points; point `t` works on rows 256·t … 256·t + 255.  Its blocks of x, h and the previous cell state
  are those rows; the weight halves, the bias, the scale, the shift and the retention are whole at every point.  Before
  the region the host cuts the weight matrix into its upper and lower halves, narrows x, h and the halves to 16 bits
  (the identity on extended reals) and lays the four vectors as single rows.  So row `p` of point `t`'s output blocks
  is the row formula at row 256·t + p of the arguments, and since every row lies in exactly one point's block the two
  result arrays are the specification's arrays.
-/
import proofs.«151947_j82867099009371_2_alg».proof.Proof.BlockValue
import proofs.«151947_j82867099009371_2_alg».proof.Proof.ArraySpec
import Idealize.ShloMosaic.Lib.StableHlo.Run
import Idealize.ShloMosaic.Lib.ValueLayout

noncomputable section

namespace Cert.KernelIdeal.ArrayValue

open Cert.KernelIdeal Cert.KernelIdeal.Gen Cert.KernelIdeal.Value Cert.KernelIdeal.BlockValue Idealize.ShloMosaic
  Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the windows sit on the grid -/

/-- The row-blocked windows (x, h, the previous cell state and the two outputs) sit at block row `t`, block column 0;
    the other six windows sit at block (0, 0), at every point. -/
theorem where_windows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `p` of point `t`'s block is row 256·t + p of the array. -/
def rowIdx (t : Fin cfg0.N) (p : Fin 256) : Fin 16384 :=
  ⟨t.val * 256 + p.val, by have ht : t.val < 64 := lt_of_lt_of_eq t.isLt N_0; have := p.isLt; omega⟩

theorem hz : (![0, 0] : Fin 2 → Nat) = fun _ => 0 := funext fun a => by fin_cases a <;> rfl

/-! ## What the windows' arrays hold when the region is entered -/

section entry

variable (c : Dev nD)

/-- x narrowed to 16 bits is x. -/
theorem entry_x : (V m c main_v4 : S16384x1024.Idx → EReal) = (m ((c : Thread nD τ).loc main_arg0)) := by
  dsimp only [Gen.V, Gen.hostOps0]; after_results <;> rfl

/-- h narrowed to 16 bits is h. -/
theorem entry_h : (V m c main_v5 : S16384x1024.Idx → EReal) = (m ((c : Thread nD τ).loc main_arg1)) := by
  dsimp only [Gen.V, Gen.hostOps0]; after_results <;> rfl

/-- The upper half of the weights: rows 0 … 1023. -/
theorem entry_w1 : (V m c main_v1 : S1024x5120.Idx → EReal)
    = extractStridedSlice S1024x5120 ![0, 0] (m ((c : Thread nD τ).loc main_arg3)) slices_S2048x5120_S1024x5120_0_0 := by
  dsimp only [Gen.V, Gen.hostOps0]; after_results <;> rfl

/-- The lower half of the weights: rows 1024 … 2047. -/
theorem entry_w2 : (V m c main_v3 : S1024x5120.Idx → EReal)
    = extractStridedSlice S1024x5120 ![1024, 0] (m ((c : Thread nD τ).loc main_arg3)) slices_S2048x5120_S1024x5120_1024_0 := by
  dsimp only [Gen.V, Gen.hostOps0]; after_results <;> rfl

/-- The bias as one row. -/
theorem entry_b : (V m c main_v6 : S1x5120.Idx → EReal) = shapeCast S1x5120 (m ((c : Thread nD τ).loc main_arg4)) shapeCasts_S5120_S1x5120 := by
  dsimp only [Gen.V, Gen.hostOps0]; after_results <;> rfl

/-- The scale as one row. -/
theorem entry_gamma : (V m c main_v7 : S1x1024.Idx → EReal) = shapeCast S1x1024 (m ((c : Thread nD τ).loc main_arg5)) shapeCasts_S1024_S1x1024 := by
  dsimp only [Gen.V, Gen.hostOps0]; after_results <;> rfl

/-- The shift as one row. -/
theorem entry_beta : (V m c main_v8 : S1x1024.Idx → EReal) = shapeCast S1x1024 (m ((c : Thread nD τ).loc main_arg6)) shapeCasts_S1024_S1x1024 := by
  dsimp only [Gen.V, Gen.hostOps0]; after_results <;> rfl

/-- The retention as one row. -/
theorem entry_ret : (V m c main_v9 : S1x1024.Idx → EReal) = shapeCast S1x1024 (m ((c : Thread nD τ).loc main_arg7)) shapeCasts_S1024_S1x1024 := by
  dsimp only [Gen.V, Gen.hostOps0]; after_results <;> rfl

end entry

/-! ## The blocks at a point, as rows of the arguments -/

section blocks

variable (c : Dev nD) (t : Fin cfg0.N)

theorem row_x (p : Fin 256) : rowOf (φ := .bf16) (iblk m c 0 t) p = GatedCell.rowAt (m ((c : Thread nD τ).loc main_arg0)) (rowIdx t p) := by
  funext k
  show V m c main_v4 (((cfg0.win 0).blk t).view.emb (ix2 p k)) = (m ((c : Thread nD τ).loc main_arg0)) (ix2 (rowIdx t p) k)
  rw [entry_x]
  refine congrArg _ (funext fun a => Fin.ext ?_)
  obtain ⟨⟨e0, e1⟩, -⟩ := where_windows t
  match a with
  | ⟨0, _⟩ => show win0_0.index t (0 : Fin 2) * 256 + 1 * p.val = t.val * 256 + p.val; omega
  | ⟨1, _⟩ => show win0_0.index t (1 : Fin 2) * 1024 + 1 * k.val = k.val; omega

theorem row_h (p : Fin 256) : rowOf (φ := .bf16) (iblk m c 1 t) p = GatedCell.rowAt (m ((c : Thread nD τ).loc main_arg1)) (rowIdx t p) := by
  funext k
  show V m c main_v5 (((cfg0.win 1).blk t).view.emb (ix2 p k)) = (m ((c : Thread nD τ).loc main_arg1)) (ix2 (rowIdx t p) k)
  rw [entry_h]
  refine congrArg _ (funext fun a => Fin.ext ?_)
  obtain ⟨-, ⟨e0, e1⟩, -⟩ := where_windows t
  match a with
  | ⟨0, _⟩ => show win0_1.index t (0 : Fin 2) * 256 + 1 * p.val = t.val * 256 + p.val; omega
  | ⟨1, _⟩ => show win0_1.index t (1 : Fin 2) * 1024 + 1 * k.val = k.val; omega

theorem row_c (p : Fin 256) : rowOf (φ := .f32) (iblk m c 2 t) p = GatedCell.rowAt (m ((c : Thread nD τ).loc main_arg2)) (rowIdx t p) := by
  funext k
  show V m c main_arg2 (((cfg0.win 2).blk t).view.emb (ix2 p k)) = (m ((c : Thread nD τ).loc main_arg2)) (ix2 (rowIdx t p) k)
  rw [V_main_arg2]
  refine congrArg _ (funext fun a => Fin.ext ?_)
  obtain ⟨-, -, ⟨e0, e1⟩, -⟩ := where_windows t
  match a with
  | ⟨0, _⟩ => show win0_2.index t (0 : Fin 2) * 256 + 1 * p.val = t.val * 256 + p.val; omega
  | ⟨1, _⟩ => show win0_2.index t (1 : Fin 2) * 1024 + 1 * k.val = k.val; omega

theorem mat_w1 : matOf (iblk m c 3 t) = GatedCell.upper (m ((c : Thread nD τ).loc main_arg3)) := by
  funext k j
  show V m c main_v1 (((cfg0.win 3).blk t).view.emb (ix2 k j)) = (m ((c : Thread nD τ).loc main_arg3)) (ix2 ⟨k.val, _⟩ j)
  rw [entry_w1]
  obtain ⟨-, -, -, ⟨e0, e1⟩, -⟩ := where_windows t
  have he : ((cfg0.win 3).blk t).view.emb (ix2 k j) = ix2 k j := funext fun a => Fin.ext (by
    match a with
    | ⟨0, _⟩ => show win0_3.index t (0 : Fin 2) * 1024 + 1 * k.val = k.val; omega
    | ⟨1, _⟩ => show win0_3.index t (1 : Fin 2) * 5120 + 1 * j.val = j.val; omega)
  rw [he]
  exact slice2_axis0_apply 0 _ _ k j _ (by show k.val = 0 + k.val; omega)

theorem mat_w2 : matOf (iblk m c 4 t) = GatedCell.lower (m ((c : Thread nD τ).loc main_arg3)) := by
  funext k j
  show V m c main_v3 (((cfg0.win 4).blk t).view.emb (ix2 k j)) = (m ((c : Thread nD τ).loc main_arg3)) (ix2 ⟨1024 + k.val, _⟩ j)
  rw [entry_w2]
  obtain ⟨-, -, -, -, ⟨e0, e1⟩, -⟩ := where_windows t
  have he : ((cfg0.win 4).blk t).view.emb (ix2 k j) = ix2 k j := funext fun a => Fin.ext (by
    match a with
    | ⟨0, _⟩ => show win0_4.index t (0 : Fin 2) * 1024 + 1 * k.val = k.val; omega
    | ⟨1, _⟩ => show win0_4.index t (1 : Fin 2) * 5120 + 1 * j.val = j.val; omega)
  rw [he]
  exact slice2_axis0_apply 1024 _ _ k j _ rfl

theorem vec_b : biasOf (iblk m c 5 t) = GatedCell.entries (m ((c : Thread nD τ).loc main_arg4)) := by
  funext j
  show V m c main_v6 (((cfg0.win 5).blk t).view.emb (ix2 (0 : Fin 1) j)) = (m ((c : Thread nD τ).loc main_arg4)) (ix1 j)
  rw [entry_b]
  obtain ⟨-, -, -, -, -, ⟨e0, e1⟩, -⟩ := where_windows t
  have he : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 5120 + 1 * j.val = j.val; omega)
  rw [he]
  exact shapeCast_a_1a_apply _ _ 0 j

theorem vec_gamma : vecOf (iblk m c 6 t) = GatedCell.entries (m ((c : Thread nD τ).loc main_arg5)) := by
  funext j
  show V m c main_v7 (((cfg0.win 6).blk t).view.emb (ix2 (0 : Fin 1) j)) = (m ((c : Thread nD τ).loc main_arg5)) (ix1 j)
  rw [entry_gamma]
  obtain ⟨-, -, -, -, -, -, ⟨e0, e1⟩, -⟩ := where_windows t
  have he : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 1024 + 1 * j.val = j.val; omega)
  rw [he]
  exact shapeCast_a_1a_apply _ _ 0 j

theorem vec_beta : vecOf (iblk m c 7 t) = GatedCell.entries (m ((c : Thread nD τ).loc main_arg6)) := by
  funext j
  show V m c main_v8 (((cfg0.win 7).blk t).view.emb (ix2 (0 : Fin 1) j)) = (m ((c : Thread nD τ).loc main_arg6)) (ix1 j)
  rw [entry_beta]
  obtain ⟨-, -, -, -, -, -, -, ⟨e0, e1⟩, -⟩ := where_windows t
  have he : ((cfg0.win 7).blk t).view.emb (ix2 (0 : Fin 1) j) = ix2 (0 : Fin 1) j := funext fun a => Fin.ext (by
    match a with
    | ⟨0, _⟩ => show win0_7.index t (0 : Fin 2) * 1 + 1 * 0 = 0; omega
    | ⟨1, _⟩ => show win0_7.index t (1 : Fin 2) * 1024 + 1 * j.val = j.val; omega)
  rw [he]
  exact shapeCast_a_1a_apply _ _ 0 j

theorem vec_ret : vecOf (iblk m c 8 t) = GatedCell.entries (m ((c : Thread nD τ).loc main_arg7)) := by
  funext j
  show V m c main_v9 (((cfg0.win 8).blk t).view.emb (ix2 (0 : Fin 1) j)) = (m ((c : Thread nD τ).loc main_arg7)) (ix1 j)
  rw [entry_ret]
  obtain ⟨-, -, -, -, -, -, -, -, ⟨e0, e1⟩, -⟩ := where_windows t
  have he : ((cfg0.win 8).blk t).view.emb (ix2 (0 : Fin 1) j) = ix2 (0 : Fin 1) j := funext fun a => Fin.ext (by
    match a with
    | ⟨0, _⟩ => show win0_8.index t (0 : Fin 2) * 1 + 1 * 0 = 0; omega
    | ⟨1, _⟩ => show win0_8.index t (1 : Fin 2) * 1024 + 1 * j.val = j.val; omega)
  rw [he]
  exact shapeCast_a_1a_apply _ _ 0 j

/-- An element `(p, q)` of the hidden state's block sits at `(256·t + p, q)` of its array. -/
theorem emb_hidden (p : Fin 256) (q : Fin 1024) : ((cfg0.win 9).blk t).view.emb (ix2 p q) = ix2 (rowIdx t p) q := by
  obtain ⟨-, -, -, -, -, -, -, -, -, ⟨e0, e1⟩, -⟩ := where_windows t
  refine funext fun a => Fin.ext ?_
  match a with
  | ⟨0, _⟩ => show win0_9.index t (0 : Fin 2) * 256 + 1 * p.val = t.val * 256 + p.val; omega
  | ⟨1, _⟩ => show win0_9.index t (1 : Fin 2) * 1024 + 1 * q.val = q.val; omega

/-- An element `(p, q)` of the cell state's block sits at `(256·t + p, q)` of its array. -/
theorem emb_cell (p : Fin 256) (q : Fin 1024) : ((cfg0.win 10).blk t).view.emb (ix2 p q) = ix2 (rowIdx t p) q := by
  obtain ⟨-, -, -, -, -, -, -, -, -, -, ⟨e0, e1⟩⟩ := where_windows t
  refine funext fun a => Fin.ext ?_
  match a with
  | ⟨0, _⟩ => show win0_10.index t (0 : Fin 2) * 256 + 1 * p.val = t.val * 256 + p.val; omega
  | ⟨1, _⟩ => show win0_10.index t (1 : Fin 2) * 1024 + 1 * q.val = q.val; omega

end blocks

/-! ## What each point writes back -/

section flushed

variable (c : Dev nD) (t : Fin cfg0.N)

/-- Point `t` writes back block `t` of the specification's hidden-state array. -/
theorem flushed_hidden :
    (dats m 0 c).flushed 9 t
      = ((cfg0.win 9).blk t).view.read (Elt Ideal) (GatedCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9]
  unfold out0_9
  simp only [View.ld_unit_zero (S := S256x1024) hz, View.ld_unit_zero (S := S1024x5120) hz,
    View.ld_unit_zero (S := S1x5120) hz, View.ld_unit_zero (S := S1x1024) hz]
  funext y
  obtain ⟨p, q, rfl⟩ : ∃ (p : Fin 256) (q : Fin 1024), y = ix2 p q := ⟨y 0, y 1, eq_ix2 y⟩
  refine (canon9_eq (iblk m c 0 t) (iblk m c 3 t) (iblk m c 1 t) (iblk m c 4 t) (iblk m c 5 t) (iblk m c 6 t) (iblk m c 7 t) (iblk m c 2 t) (iblk m c 8 t) (ix2 p q)).trans ?_
  refine (hidden_block (iblk m c 0 t) (iblk m c 3 t) (iblk m c 1 t) (iblk m c 4 t) (iblk m c 5 t) (iblk m c 6 t) (iblk m c 7 t) (iblk m c 2 t) (iblk m c 8 t) p q).trans ?_
  show _ = GatedCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb (ix2 p q))
  rw [emb_hidden t p q, GatedCell.hiddenArr_apply]
  unfold GatedCell.hiddenAt
  rw [row_x m c t p, row_h m c t p, row_c m c t p, mat_w1 m c t, mat_w2 m c t, vec_b m c t, vec_gamma m c t, vec_beta m c t,
    vec_ret m c t]

/-- Point `t` writes back block `t` of the specification's cell-state array. -/
theorem flushed_cell :
    (dats m 0 c).flushed 10 t
      = ((cfg0.win 10).blk t).view.read (Elt Ideal) (GatedCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) := by
  rw [Value.flushed10]
  unfold out0_10
  simp only [View.ld_unit_zero (S := S256x1024) hz, View.ld_unit_zero (S := S1024x5120) hz,
    View.ld_unit_zero (S := S1x5120) hz, View.ld_unit_zero (S := S1x1024) hz]
  funext y
  obtain ⟨p, q, rfl⟩ : ∃ (p : Fin 256) (q : Fin 1024), y = ix2 p q := ⟨y 0, y 1, eq_ix2 y⟩
  refine (canon10_eq (iblk m c 0 t) (iblk m c 3 t) (iblk m c 1 t) (iblk m c 4 t) (iblk m c 5 t) (iblk m c 2 t) (iblk m c 8 t) (ix2 p q)).trans ?_
  refine (cell_block (iblk m c 0 t) (iblk m c 3 t) (iblk m c 1 t) (iblk m c 4 t) (iblk m c 5 t) (iblk m c 2 t) (iblk m c 8 t) p q).trans ?_
  show _ = GatedCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (((cfg0.win 10).blk t).view.emb (ix2 p q))
  rw [emb_cell t p q, GatedCell.cellArr_apply]
  unfold GatedCell.cellAt
  rw [row_x m c t p, row_h m c t p, row_c m c t p, mat_w1 m c t, mat_w2 m c t, vec_b m c t, vec_ret m c t]

end flushed

/-! ## Every row is in exactly one point's block -/

theorem mem_hidden (t : Fin cfg0.N) (i : S16384x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v10_0).slice (win0_9.rect t)).set ↔ _
  rw [View.set_slice_whole, Rect.mem_set_unit]
  exact Iff.rfl

theorem mem_cell (t : Fin cfg0.N) (i : S16384x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v10_1).slice (win0_10.rect t)).set ↔ _
  rw [View.set_slice_whole, Rect.mem_set_unit]
  exact Iff.rfl

/-- The point whose block holds row `r` is `r / 256`. -/
def pointOf (i : S16384x1024.Idx) : Fin cfg0.N :=
  ⟨(i 0).val / 256, by
    have hN : grid0.N = 64 := N_0
    have hi : (i 0).val < 16384 := (i 0).isLt
    show (i 0).val / 256 < grid0.N
    omega⟩

theorem cover_hidden (i : S16384x1024.Idx) :
    ∃ t : Fin cfg0.N, (cfg0.win 9).flush t = true ∧ i ∈ ((cfg0.win 9).blk t).view.set := by
  refine ⟨pointOf i, flush0_9 _, ?_⟩
  rw [mem_hidden]
  obtain ⟨-, -, -, -, -, -, -, -, -, ⟨e0, e1⟩, -⟩ := where_windows (pointOf i)
  have ht : (pointOf i).val = (i 0).val / 256 := rfl
  have hi1 : (i 1).val < 1024 := (i 1).isLt
  intro a
  match a with
  | ⟨0, _⟩ =>
    show win0_9.index (pointOf i) (0 : Fin 2) * 256 ≤ (i 0).val ∧ (i 0).val < win0_9.index (pointOf i) (0 : Fin 2) * 256 + 256
    omega
  | ⟨1, _⟩ =>
    show win0_9.index (pointOf i) (1 : Fin 2) * 1024 ≤ (i 1).val ∧ (i 1).val < win0_9.index (pointOf i) (1 : Fin 2) * 1024 + 1024
    omega

theorem cover_cell (i : S16384x1024.Idx) :
    ∃ t : Fin cfg0.N, (cfg0.win 10).flush t = true ∧ i ∈ ((cfg0.win 10).blk t).view.set := by
  refine ⟨pointOf i, flush0_10 _, ?_⟩
  rw [mem_cell]
  obtain ⟨-, -, -, -, -, -, -, -, -, -, ⟨e0, e1⟩⟩ := where_windows (pointOf i)
  have ht : (pointOf i).val = (i 0).val / 256 := rfl
  have hi1 : (i 1).val < 1024 := (i 1).isLt
  intro a
  match a with
  | ⟨0, _⟩ =>
    show win0_10.index (pointOf i) (0 : Fin 2) * 256 ≤ (i 0).val ∧ (i 0).val < win0_10.index (pointOf i) (0 : Fin 2) * 256 + 256
    omega
  | ⟨1, _⟩ =>
    show win0_10.index (pointOf i) (1 : Fin 2) * 1024 ≤ (i 1).val ∧ (i 1).val < win0_10.index (pointOf i) (1 : Fin 2) * 1024 + 1024
    omega

/-! ## The two result arrays after the run -/

theorem final_hidden (c : Dev nD) :
    (dats m 0 c).arrAt 9 cfg0.N = GatedCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed_hidden m c t) cover_hidden

theorem final_cell (c : Dev nD) :
    (dats m 0 c).arrAt 10 cfg0.N = GatedCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (dats m 0 c).arrAt_eq_of_cover 10 _ (fun t _ => flushed_cell m c t) cover_cell

/-- Every weakly fair execution of the idealized kernel ends with the two results at the specification's arrays and the
    arguments unchanged. -/
theorem run : θ_run defs (onTc (τ := τ) (main (F := Ideal))) ⟨m, fun _ => 0, ρ⟩ fun r => ∀ c : Dev nD,
      r.2.mem ((c : Thread nD τ).loc main_v10_0) = GatedCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v10_1) = GatedCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (Value.run_blocks m ρ)

end Cert.KernelIdeal.ArrayValue

end
-- ==== Proof.RefTerm.lean ====
/-
  The reference's two results as functions of its eight argument arrays, written stage by stage in the host's own
  operations, in the order the program applies them.

  * `gatesR`: the rows of x and h laid side by side, [16384, 2048], times the weight matrix [2048, 5120], plus the
    bias broadcast down the rows: the five gates' pre-activations, [16384, 5120].
  * `bandR g`: columns 1024·g … 1024·g + 1023 of the pre-activations, one band per gate (forget, input, output,
    candidate, mix).
  * `sigR z`: 1 / (1 + exp (−z)) element by element, the logistic function as the host spells it.
  * `cnewR`: the new cell state, m·((f·c + i·tanh(cand))·ρ + (1 − ρ)·c) + (1 − m)·c, ρ the retention row.
  * `meanR z`: each row's sum divided by 1024, as a column; `varR z`: each row's sum of squared deviations from its
    mean divided by 1024 − ddof with ddof = 0, guarded by the test 1024 − ddof > 0 (else NaN).
  * `lnR`: (z − mean)·rsqrt(var + ε)·γ + β; `hnewR`: logistic(lnR(output gate)) · tanh(new cell state).
-/
import proofs.«151947_j82867099009371_2_alg».proof.Proof.Gen.ReferenceIdeal

noncomputable section

namespace Cert.ReferenceIdeal.RefTerm

open Cert.ReferenceIdeal Cert.ReferenceIdeal.Facts₀ Cert.ReferenceIdeal.Facts Idealize.ShloMosaic

variable {F : FTy → Type} [FloatOps F]

/-- The matrix of ones. -/
def onesR : FVec F S16384x1024 .f32 :=
  broadcastInDim S16384x1024 ![] bcast_S_S16384x1024 (constant S_ .f32 0x3F800000#32)

/-- The logistic function as the host spells it: 1 / (1 + exp (−z)). -/
def sigR (z : FVec F S16384x1024 .f32) : FVec F S16384x1024 .f32 :=
  Host.divf onesR (addf onesR (Host.exp (Host.negf z)))

/-- A vector of 1024 entries laid as a row and copied down the 16384 rows. -/
def rowB (v : FVec F S1024 .f32) : FVec F S16384x1024 .f32 :=
  broadcastInDim S16384x1024 ![0, 1] bcast_S1x1024_S16384x1024_0_1 (broadcastInDim S1x1024 ![1] bcast_S1024_S1x1024_1 v)

/-- A column of 16384 entries copied along the 1024 columns. -/
def colB (v : FVec F S16384x1 .f32) : FVec F S16384x1024 .f32 :=
  broadcastInDim S16384x1024 ![0, 1] bcast_S16384x1_S16384x1024_0_1 v

/-- The gates' pre-activations: [x | h] · W + b. -/
def gatesR (x h : FVec F S16384x1024 .f32) (W : FVec F S2048x5120 .f32) (b : FVec F S5120 .f32) : FVec F S16384x5120 .f32 :=
  addf
    (Host.dotGeneral dot_S16384x2048_S2048x5120_S16384x5120_1_0_0_1_n_n none
      (concatenate S16384x2048 1 [⟨S16384x1024, x⟩, ⟨S16384x1024, h⟩] concatenates_S16384x1024_S16384x1024_S16384x2048_d1) W)
    (broadcastInDim S16384x5120 ![0, 1] bcast_S1x5120_S16384x5120_0_1 (broadcastInDim S1x5120 ![1] bcast_S5120_S1x5120_1 b))

/-- The forget gate's band of the pre-activations: columns 0 … 1023. -/
def band0 (g : FVec F S16384x5120 .f32) : FVec F S16384x1024 .f32 :=
  extractStridedSlice S16384x1024 ![0, 0] g slices_S16384x5120_S16384x1024_0_0
/-- The input gate's band: columns 1024 … 2047. -/
def band1 (g : FVec F S16384x5120 .f32) : FVec F S16384x1024 .f32 :=
  extractStridedSlice S16384x1024 ![0, 1024] g slices_S16384x5120_S16384x1024_0_1024
/-- The output gate's band: columns 2048 … 3071. -/
def band2 (g : FVec F S16384x5120 .f32) : FVec F S16384x1024 .f32 :=
  extractStridedSlice S16384x1024 ![0, 2048] g slices_S16384x5120_S16384x1024_0_2048
/-- The candidate's band: columns 3072 … 4095. -/
def band3 (g : FVec F S16384x5120 .f32) : FVec F S16384x1024 .f32 :=
  extractStridedSlice S16384x1024 ![0, 3072] g slices_S16384x5120_S16384x1024_0_3072
/-- The mix gate's band: columns 4096 … 5119. -/
def band4 (g : FVec F S16384x5120 .f32) : FVec F S16384x1024 .f32 :=
  extractStridedSlice S16384x1024 ![0, 4096] g slices_S16384x5120_S16384x1024_0_4096

/-- The new cell state from the pre-activations, the previous cell state and the retention row. -/
def cnewR (g : FVec F S16384x5120 .f32) (cp : FVec F S16384x1024 .f32) (ret : FVec F S1024 .f32) : FVec F S16384x1024 .f32 :=
  addf
    (mulf (sigR (band4 g))
      (addf
        (mulf (addf (mulf (sigR (band0 g)) cp) (mulf (sigR (band1 g)) (Host.tanh (band3 g)))) (rowB ret))
        (mulf (rowB (subf (broadcastInDim S1024 ![] bcast_S_S1024 (constant S_ .f32 0x3F800000#32)) ret)) cp)))
    (mulf (subf onesR (sigR (band4 g))) cp)

/-- Each row's sum, as a column. -/
def colSumR (z : FVec F S16384x1024 .f32) : FVec F S16384x1 .f32 :=
  broadcastInDim S16384x1 ![0] bcast_S16384_S16384x1_0
    (Host.reduceAdd z (constant S_ .f32 0x00000000#32) reducesTo_S16384x1024_S16384_d1 h_S_)

/-- Each row's mean: its sum over 1024. -/
def meanR (z : FVec F S16384x1024 .f32) : FVec F S16384x1 .f32 :=
  Host.divf (colSumR z) (broadcastInDim S16384x1 ![] bcast_S_S16384x1 (constant S_ .f32 0x44800000#32))

/-- The variance's divisor: 1024 minus the degrees of freedom taken off, here the integer 0. -/
def dofR : FVec F S_ .f32 :=
  subf (constant S_ .f32 0x44800000#32) (sitofp .f32 (constantI S_ 32 0#32))

/-- Each row's variance about its mean, guarded by the test that the divisor is positive. -/
def varR (z : FVec F S16384x1024 .f32) : FVec F S16384x1 .f32 :=
  select (broadcastInDim S16384x1 ![] bcast_S_S16384x1 (cmpf .ogt (dofR (F := F)) (constant S_ .f32 0x00000000#32)))
    (Host.divf (colSumR (mulf (subf z (colB (meanR z))) (subf z (colB (meanR z)))))
      (broadcastInDim S16384x1 ![] bcast_S_S16384x1 (dofR (F := F))))
    (broadcastInDim S16384x1 ![] bcast_S_S16384x1 (constant S_ .f32 0x7FC00000#32))

/-- The normalized rows, scaled and shifted: (z − mean) · rsqrt (var + ε) · γ + β. -/
def lnR (z : FVec F S16384x1024 .f32) (gamma beta : FVec F S1024 .f32) : FVec F S16384x1024 .f32 :=
  addf
    (mulf
      (mulf (subf z (colB (meanR z)))
        (colB (Host.rsqrt (addf (varR z) (broadcastInDim S16384x1 ![] bcast_S_S16384x1 (constant S_ .f32 0x3727C5AC#32))))))
      (rowB gamma))
    (rowB beta)

/-- The new hidden state: logistic of the normalized output gate, times tanh of the new cell state. -/
def hnewR (g : FVec F S16384x5120 .f32) (cp : FVec F S16384x1024 .f32) (gamma beta ret : FVec F S1024 .f32) :
    FVec F S16384x1024 .f32 :=
  mulf (sigR (lnR (sigR (band2 g)) gamma beta)) (Host.tanh (cnewR g cp ret))

end Cert.ReferenceIdeal.RefTerm

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference's @main, with the variance function's lines and, inside it, its guard's lines set in place of the
  two calls, is a straight line of 116 host operations: the 60 of the first window, then the 33 of the second
  around the 20 of the variance function and the 3 of its guard.  Running it from any launch contents ends, on
  every device, with each buffer at the composition of those operations applied to the contents of the eight
  arguments, and with the arguments as they were.

  That composition is the staged term of the module RefTerm (`hnewR` and `cnewR` over `gatesR`): the first
  window leaves the output gate's logistic, the retained part of the new cell state and the complement of the
  mix gate; the second window adds the two parts into the new cell state, normalizes the output gate row by row
  (mean, guarded variance, reciprocal square root, scale, shift), and multiplies the logistic of that by the
  hyperbolic tangent of the new cell state.  Each window's result is read off its own fold, and the two folds
  compose.
-/
import proofs.«151947_j82867099009371_2_alg».proof.Proof.RefTerm
import proofs.«151947_j82867099009371_2_alg».proof.Proof.LibTRef
import proofs.«151947_j82867099009371_2_alg».proof.Proof.LibAfter
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

set_option maxHeartbeats 4000000 in
/-- The first window's 60 operations, in order. -/
abbrev ops0 : List (HloOp τ sig (Elt F)) :=
  [ binary main_arg0 main_arg1 main_v0 ((fun a b => concatenate S16384x2048 1 [⟨S16384x1024, a⟩, ⟨S16384x1024, b⟩] concatenates_S16384x1024_S16384x1024_S16384x2048_d1) : (⟨S16384x1024, .f32⟩ : BufTy).Contents (Elt F) → (⟨S16384x1024, .f32⟩ : BufTy).Contents (Elt F) → (⟨S16384x2048, .f32⟩ : BufTy).Contents (Elt F)),
    binary main_v0 main_arg3 main_v1 ((fun l r => Host.dotGeneral dot_S16384x2048_S2048x5120_S16384x5120_1_0_0_1_n_n none l r) : (⟨S16384x2048, .f32⟩ : BufTy).Contents (Elt F) → (⟨S2048x5120, .f32⟩ : BufTy).Contents (Elt F) → (⟨S16384x5120, .f32⟩ : BufTy).Contents (Elt F)),
    unary main_arg4 main_v2 (broadcastInDim S1x5120 ![1] bcast_S5120_S1x5120_1 : (⟨S5120, .f32⟩ : BufTy).Contents (Elt F) → (⟨S1x5120, .f32⟩ : BufTy).Contents (Elt F)),
    unary main_v2 main_v3 (broadcastInDim S16384x5120 ![0, 1] bcast_S1x5120_S16384x5120_0_1 : (⟨S1x5120, .f32⟩ : BufTy).Contents (Elt F) → (⟨S16384x5120, .f32⟩ : BufTy).Contents (Elt F)),
    binary main_v1 main_v3 main_v4 (addf : (⟨S16384x5120, .f32⟩ : BufTy).Contents (Elt F) → (⟨S16384x5120, .f32⟩ : BufTy).Contents (Elt F) → (⟨S16384x5120, .f32⟩ : BufTy).Contents (Elt F)),
    unary main_v4 main_v5 ((extractStridedSlice S16384x1024 ![0, 0] · slices_S16384x5120_S16384x1024_0_0) : (⟨S16384x5120, .f32⟩ : BufTy).Contents (Elt F) → (⟨S16384x1024, .f32⟩ : BufTy).Contents (Elt F)),
    unary main_v4 main_v6 ((extractStridedSlice S16384x1024 ![0, 1024] · slices_S16384x5120_S16384x1024_0_1024) : (⟨S16384x5120, .f32⟩ : BufTy).Contents (Elt F) → (⟨S16384x1024, .f32⟩ : BufTy).Contents (Elt F)),
    unary main_v4 main_v7 ((extractStridedSlice S16384x1024 ![0, 2048] · slices_S16384x5120_S16384x1024_0_2048) : (⟨S16384x5120, .f32⟩ : BufTy).Contents (Elt F) → (⟨S16384x1024, .f32⟩ : BufTy).Contents (Elt F)),
    unary main_v4 main_v8 ((extractStridedSlice S16384x1024 ![0, 3072] · slices_S16384x5120_S16384x1024_0_3072) : (⟨S16384x5120, .f32⟩ : BufTy).Contents (Elt F) → (⟨S16384x1024, .f32⟩ : BufTy).Contents (Elt F)),
    unary main_v4 main_v9 ((extractStridedSlice S16384x1024 ![0, 4096] · slices_S16384x5120_S16384x1024_0_4096) : (⟨S16384x5120, .f32⟩ : BufTy).Contents (Elt F) → (⟨S16384x1024, .f32⟩ : BufTy).Contents (Elt F)),
    unary main_v5 main_v10 (Host.negf : (⟨S16384x1024, .f32⟩ : BufTy).Contents (Elt F) → (⟨S16384x1024, .f32⟩ : BufTy).Contents (Elt F)),
    unary main_v10 main_v11 (Host.exp : (⟨S16384x1024, .f32⟩ : BufTy).Contents (Elt F) → (⟨S16384x1024, .f32⟩ : BufTy).Contents (Elt F)),
    nullary main_cst (constant S_ .f32 0x3F800000#32),
    unary main_cst main_v12 (broadcastInDim S16384x1024 ![] bcast_S_S16384x1024 : (⟨S_, .f32⟩ : BufTy).Contents (Elt F) → (⟨S16384x1024, .f32⟩ : BufTy).Contents (Elt F)),
    binary main_v12 main_v11 main_v13 (addf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x3F800000#32),
    unary main_cst_0 main_v14 (broadcastInDim S16384x1024 ![] bcast_S_S16384x1024 : (⟨S_, .f32⟩ : BufTy).Contents (Elt F) → (⟨S16384x1024, .f32⟩ : BufTy).Contents (Elt F)),
    binary main_v14 main_v13 main_v15 (Host.divf : (⟨S16384x1024, .f32⟩ : BufTy).Contents (Elt F) → (⟨S16384x1024, .f32⟩ : BufTy).Contents (Elt F) → (⟨S16384x1024, .f32⟩ : BufTy).Contents (Elt F)),
    unary main_v6 main_v16 (Host.negf : (⟨S16384x1024, .f32⟩ : BufTy).Contents (Elt F) → (⟨S16384x1024, .f32⟩ : BufTy).Contents (Elt F)),
    unary main_v16 main_v17 (Host.exp : (⟨S16384x1024, .f32⟩ : BufTy).Contents (Elt F) → (⟨S16384x1024, .f32⟩ : BufTy).Contents (Elt F)),
    nullary main_cst_1 (constant S_ .f32 0x3F800000#32),
    unary main_cst_1 main_v18 (broadcastInDim S16384x1024 ![] bcast_S_S16384x1024 : (⟨S_, .f32⟩ : BufTy).Contents (Elt F) → (⟨S16384x1024, .f32⟩ : BufTy).Contents (Elt F)),
    binary main_v18 main_v17 main_v19 (addf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x3F800000#32),
    unary main_cst_2 main_v20 (broadcastInDim S16384x1024 ![] bcast_S_S16384x1024 : (⟨S_, .f32⟩ : BufTy).Contents (Elt F) → (⟨S16384x1024, .f32⟩ : BufTy).Contents (Elt F)),
    binary main_v20 main_v19 main_v21 (Host.divf : (⟨S16384x1024, .f32⟩ : BufTy).Contents (Elt F) → (⟨S16384x1024, .f32⟩ : BufTy).Contents (Elt F) → (⟨S16384x1024, .f32⟩ : BufTy).Contents (Elt F)),
    unary main_v7 main_v22 (Host.negf : (⟨S16384x1024, .f32⟩ : BufTy).Contents (Elt F) → (⟨S16384x1024, .f32⟩ : BufTy).Contents (Elt F)),
    unary main_v22 main_v23 (Host.exp : (⟨S16384x1024, .f32⟩ : BufTy).Contents (Elt F) → (⟨S16384x1024, .f32⟩ : BufTy).Contents (Elt F)),
    nullary main_cst_3 (constant S_ .f32 0x3F800000#32),
    unary main_cst_3 main_v24 (broadcastInDim S16384x1024 ![] bcast_S_S16384x1024 : (⟨S_, .f32⟩ : BufTy).Contents (Elt F) → (⟨S16384x1024, .f32⟩ : BufTy).Contents (Elt F)),
    binary main_v24 main_v23 main_v25 (addf : (⟨S16384x1024, .f32⟩ : BufTy).Contents (Elt F) → (⟨S16384x1024, .f32⟩ : BufTy).Contents (Elt F) → (⟨S16384x1024, .f32⟩ : BufTy).Contents (Elt F)),
    nullary main_cst_4 (constant S_ .f32 0x3F800000#32),
    unary main_cst_4 main_v26 (broadcastInDim S16384x1024 ![] bcast_S_S16384x1024 : (⟨S_, .f32⟩ : BufTy).Contents (Elt F) → (⟨S16384x1024, .f32⟩ : BufTy).Contents (Elt F)),
    binary main_v26 main_v25 main_v27 (Host.divf : (⟨S16384x1024, .f32⟩ : BufTy).Contents (Elt F) → (⟨S16384x1024, .f32⟩ : BufTy).Contents (Elt F) → (⟨S16384x1024, .f32⟩ : BufTy).Contents (Elt F)),
    unary main_v8 main_v28 (Host.tanh : (⟨S16384x1024, .f32⟩ : BufTy).Contents (Elt F) → (⟨S16384x1024, .f32⟩ : BufTy).Contents (Elt F)),
    unary main_v9 main_v29 (Host.negf : (⟨S16384x1024, .f32⟩ : BufTy).Contents (Elt F) → (⟨S16384x1024, .f32⟩ : BufTy).Contents (Elt F)),
    unary main_v29 main_v30 (Host.exp : (⟨S16384x1024, .f32⟩ : BufTy).Contents (Elt F) → (⟨S16384x1024, .f32⟩ : BufTy).Contents (Elt F)),
    nullary main_cst_5 (constant S_ .f32 0x3F800000#32),
    unary main_cst_5 main_v31 (broadcastInDim S16384x1024 ![] bcast_S_S16384x1024 : (⟨S_, .f32⟩ : BufTy).Contents (Elt F) → (⟨S16384x1024, .f32⟩ : BufTy).Contents (Elt F)),
    binary main_v31 main_v30 main_v32 (addf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x3F800000#32),
    unary main_cst_6 main_v33 (broadcastInDim S16384x1024 ![] bcast_S_S16384x1024 : (⟨S_, .f32⟩ : BufTy).Contents (Elt F) → (⟨S16384x1024, .f32⟩ : BufTy).Contents (Elt F)),
    binary main_v33 main_v32 main_v34 (Host.divf : (⟨S16384x1024, .f32⟩ : BufTy).Contents (Elt F) → (⟨S16384x1024, .f32⟩ : BufTy).Contents (Elt F) → (⟨S16384x1024, .f32⟩ : BufTy).Contents (Elt F)),
    binary main_v15 main_arg2 main_v35 (mulf : (⟨S16384x1024, .f32⟩ : BufTy).Contents (Elt F) → (⟨S16384x1024, .f32⟩ : BufTy).Contents (Elt F) → (⟨S16384x1024, .f32⟩ : BufTy).Contents (Elt F)),
    binary main_v21 main_v28 main_v36 (mulf : (⟨S16384x1024, .f32⟩ : BufTy).Contents (Elt F) → (⟨S16384x1024, .f32⟩ : BufTy).Contents (Elt F) → (⟨S16384x1024, .f32⟩ : BufTy).Contents (Elt F)),
    binary main_v35 main_v36 main_v37 (addf : (⟨S16384x1024, .f32⟩ : BufTy).Contents (Elt F) → (⟨S16384x1024, .f32⟩ : BufTy).Contents (Elt F) → (⟨S16384x1024, .f32⟩ : BufTy).Contents (Elt F)),
    unary main_arg7 main_v38 (broadcastInDim S1x1024 ![1] bcast_S1024_S1x1024_1 : (⟨S1024, .f32⟩ : BufTy).Contents (Elt F) → (⟨S1x1024, .f32⟩ : BufTy).Contents (Elt F)),
    unary main_v38 main_v39 (broadcastInDim S16384x1024 ![0, 1] bcast_S1x1024_S16384x1024_0_1 : (⟨S1x1024, .f32⟩ : BufTy).Contents (Elt F) → (⟨S16384x1024, .f32⟩ : BufTy).Contents (Elt F)),
    binary main_v37 main_v39 main_v40 (mulf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x3F800000#32),
    unary main_cst_7 main_v41 (broadcastInDim S1024 ![] bcast_S_S1024 : (⟨S_, .f32⟩ : BufTy).Contents (Elt F) → (⟨S1024, .f32⟩ : BufTy).Contents (Elt F)),
    binary main_v41 main_arg7 main_v42 (subf : (⟨S1024, .f32⟩ : BufTy).Contents (Elt F) → (⟨S1024, .f32⟩ : BufTy).Contents (Elt F) → (⟨S1024, .f32⟩ : BufTy).Contents (Elt F)),
    unary main_v42 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S16384x1024 ![0, 1] bcast_S1x1024_S16384x1024_0_1 : (⟨S1x1024, .f32⟩ : BufTy).Contents (Elt F) → (⟨S16384x1024, .f32⟩ : BufTy).Contents (Elt F)),
    binary main_v44 main_arg2 main_v45 (mulf : (⟨S16384x1024, .f32⟩ : BufTy).Contents (Elt F) → (⟨S16384x1024, .f32⟩ : BufTy).Contents (Elt F) → (⟨S16384x1024, .f32⟩ : BufTy).Contents (Elt F)),
    binary main_v40 main_v45 main_v46 (addf : (⟨S16384x1024, .f32⟩ : BufTy).Contents (Elt F) → (⟨S16384x1024, .f32⟩ : BufTy).Contents (Elt F) → (⟨S16384x1024, .f32⟩ : BufTy).Contents (Elt F)),
    binary main_v34 main_v46 main_v47 (mulf : (⟨S16384x1024, .f32⟩ : BufTy).Contents (Elt F) → (⟨S16384x1024, .f32⟩ : BufTy).Contents (Elt F) → (⟨S16384x1024, .f32⟩ : BufTy).Contents (Elt F)),
    nullary main_cst_8 (constant S_ .f32 0x3F800000#32),
    unary main_cst_8 main_v48 (broadcastInDim S16384x1024 ![] bcast_S_S16384x1024 : (⟨S_, .f32⟩ : BufTy).Contents (Elt F) → (⟨S16384x1024, .f32⟩ : BufTy).Contents (Elt F)),
    binary main_v48 main_v34 main_v49 (subf : (⟨S16384x1024, .f32⟩ : BufTy).Contents (Elt F) → (⟨S16384x1024, .f32⟩ : BufTy).Contents (Elt F) → (⟨S16384x1024, .f32⟩ : BufTy).Contents (Elt F)) ]

set_option maxHeartbeats 4000000 in
/-- The second window's 56 operations, in order: its own 33, with the variance function's 20 and its guard's 3
    where the call stands, over the call's buffers. -/
abbrev ops1 : List (HloOp τ sig (Elt F)) :=
  [ binary main_v49 main_arg2 main_v50 (mulf : (⟨S16384x1024, .f32⟩ : BufTy).Contents (Elt F) → (⟨S16384x1024, .f32⟩ : BufTy).Contents (Elt F) → (⟨S16384x1024, .f32⟩ : BufTy).Contents (Elt F)),
    binary main_v47 main_v50 main_v51 (addf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x00000000#32),
    binary main_v27 main_cst_9 main_v52 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v52 main_v53 (broadcastInDim S16384x1 ![0] bcast_S16384_S16384x1_0 : (⟨S16384, .f32⟩ : BufTy).Contents (Elt F) → (⟨S16384x1, .f32⟩ : BufTy).Contents (Elt F)),
    nullary main_cst_10 (constant S_ .f32 0x44800000#32),
    unary main_cst_10 main_v54 (broadcastInDim S16384x1 ![] bcast_S_S16384x1 : (⟨S_, .f32⟩ : BufTy).Contents (Elt F) → (⟨S16384x1, .f32⟩ : BufTy).Contents (Elt F)),
    binary main_v53 main_v54 main_v55 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call0.cst (constant S_ .f32 0x00000000#32),
    TRef.binary (.of main_v27) main_call0.cst main_call0.v0 (fun x v => Host.reduceAdd x v reducesTo_S16384x1024_S16384_d1 h_S_),
    TRef.unary main_call0.v0 main_call0.v1 (broadcastInDim S16384x1 ![0] bcast_S16384_S16384x1_0),
    TRef.nullary main_call0.cst_0 (constant S_ .f32 0x44800000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x1024 ![0, 1] bcast_S16384x1_S16384x1024_0_1),
    TRef.binary (.of main_v27) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x1024_S16384_d1 h_S_),
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16384x1 ![] bcast_S_S16384x1),
    TRef.ternary main_call0.v13 main_call0.v12 main_call0.call0.v1 main_call0.call0.v2 (fun p a b => select (broadcastInDim S16384x1 ![] bcast_S_S16384x1 p) a b),
    unary main_v55 main_v57 (broadcastInDim S16384x1024 ![0, 1] bcast_S16384x1_S16384x1024_0_1 : (⟨S16384x1, .f32⟩ : BufTy).Contents (Elt F) → (⟨S16384x1024, .f32⟩ : BufTy).Contents (Elt F)),
    binary main_v27 main_v57 main_v58 (subf : (⟨S16384x1024, .f32⟩ : BufTy).Contents (Elt F) → (⟨S16384x1024, .f32⟩ : BufTy).Contents (Elt F) → (⟨S16384x1024, .f32⟩ : BufTy).Contents (Elt F)),
    nullary main_cst_11 (constant S_ .f32 0x3727C5AC#32),
    unary main_cst_11 main_v59 (broadcastInDim S16384x1 ![] bcast_S_S16384x1 : (⟨S_, .f32⟩ : BufTy).Contents (Elt F) → (⟨S16384x1, .f32⟩ : BufTy).Contents (Elt F)),
    binary main_v56 main_v59 main_v60 (addf : (⟨S16384x1, .f32⟩ : BufTy).Contents (Elt F) → (⟨S16384x1, .f32⟩ : BufTy).Contents (Elt F) → (⟨S16384x1, .f32⟩ : BufTy).Contents (Elt F)),
    unary main_v60 main_v61 (Host.rsqrt : (⟨S16384x1, .f32⟩ : BufTy).Contents (Elt F) → (⟨S16384x1, .f32⟩ : BufTy).Contents (Elt F)),
    unary main_v61 main_v62 (broadcastInDim S16384x1024 ![0, 1] bcast_S16384x1_S16384x1024_0_1 : (⟨S16384x1, .f32⟩ : BufTy).Contents (Elt F) → (⟨S16384x1024, .f32⟩ : BufTy).Contents (Elt F)),
    binary main_v58 main_v62 main_v63 (mulf : (⟨S16384x1024, .f32⟩ : BufTy).Contents (Elt F) → (⟨S16384x1024, .f32⟩ : BufTy).Contents (Elt F) → (⟨S16384x1024, .f32⟩ : BufTy).Contents (Elt F)),
    unary main_arg5 main_v64 (broadcastInDim S1x1024 ![1] bcast_S1024_S1x1024_1 : (⟨S1024, .f32⟩ : BufTy).Contents (Elt F) → (⟨S1x1024, .f32⟩ : BufTy).Contents (Elt F)),
    unary main_v64 main_v65 (broadcastInDim S16384x1024 ![0, 1] bcast_S1x1024_S16384x1024_0_1 : (⟨S1x1024, .f32⟩ : BufTy).Contents (Elt F) → (⟨S16384x1024, .f32⟩ : BufTy).Contents (Elt F)),
    binary main_v63 main_v65 main_v66 (mulf : (⟨S16384x1024, .f32⟩ : BufTy).Contents (Elt F) → (⟨S16384x1024, .f32⟩ : BufTy).Contents (Elt F) → (⟨S16384x1024, .f32⟩ : BufTy).Contents (Elt F)),
    unary main_arg6 main_v67 (broadcastInDim S1x1024 ![1] bcast_S1024_S1x1024_1 : (⟨S1024, .f32⟩ : BufTy).Contents (Elt F) → (⟨S1x1024, .f32⟩ : BufTy).Contents (Elt F)),
    unary main_v67 main_v68 (broadcastInDim S16384x1024 ![0, 1] bcast_S1x1024_S16384x1024_0_1 : (⟨S1x1024, .f32⟩ : BufTy).Contents (Elt F) → (⟨S16384x1024, .f32⟩ : BufTy).Contents (Elt F)),
    binary main_v66 main_v68 main_v69 (addf : (⟨S16384x1024, .f32⟩ : BufTy).Contents (Elt F) → (⟨S16384x1024, .f32⟩ : BufTy).Contents (Elt F) → (⟨S16384x1024, .f32⟩ : BufTy).Contents (Elt F)),
    unary main_v69 main_v70 (Host.negf : (⟨S16384x1024, .f32⟩ : BufTy).Contents (Elt F) → (⟨S16384x1024, .f32⟩ : BufTy).Contents (Elt F)),
    unary main_v70 main_v71 (Host.exp : (⟨S16384x1024, .f32⟩ : BufTy).Contents (Elt F) → (⟨S16384x1024, .f32⟩ : BufTy).Contents (Elt F)),
    nullary main_cst_12 (constant S_ .f32 0x3F800000#32),
    unary main_cst_12 main_v72 (broadcastInDim S16384x1024 ![] bcast_S_S16384x1024 : (⟨S_, .f32⟩ : BufTy).Contents (Elt F) → (⟨S16384x1024, .f32⟩ : BufTy).Contents (Elt F)),
    binary main_v72 main_v71 main_v73 (addf : (⟨S16384x1024, .f32⟩ : BufTy).Contents (Elt F) → (⟨S16384x1024, .f32⟩ : BufTy).Contents (Elt F) → (⟨S16384x1024, .f32⟩ : BufTy).Contents (Elt F)),
    nullary main_cst_13 (constant S_ .f32 0x3F800000#32),
    unary main_cst_13 main_v74 (broadcastInDim S16384x1024 ![] bcast_S_S16384x1024 : (⟨S_, .f32⟩ : BufTy).Contents (Elt F) → (⟨S16384x1024, .f32⟩ : BufTy).Contents (Elt F)),
    binary main_v74 main_v73 main_v75 (Host.divf : (⟨S16384x1024, .f32⟩ : BufTy).Contents (Elt F) → (⟨S16384x1024, .f32⟩ : BufTy).Contents (Elt F) → (⟨S16384x1024, .f32⟩ : BufTy).Contents (Elt F)),
    unary main_v51 main_v76 (Host.tanh : (⟨S16384x1024, .f32⟩ : BufTy).Contents (Elt F) → (⟨S16384x1024, .f32⟩ : BufTy).Contents (Elt F)),
    binary main_v75 main_v76 main_v77 (mulf : (⟨S16384x1024, .f32⟩ : BufTy).Contents (Elt F) → (⟨S16384x1024, .f32⟩ : BufTy).Contents (Elt F) → (⟨S16384x1024, .f32⟩ : BufTy).Contents (Elt F)) ]

/-- The whole line: the first window's operations, then the second's. -/
abbrev ops : List (HloOp τ sig (Elt F)) := ops0 ++ ops1

set_option maxHeartbeats 40000000 in
set_option maxRecDepth 8192 in
/-- The first window is its line of operations. -/
theorem part0_eq (c : Dev nD) : main_part0 (F := F) c = seq ops0 := rfl

set_option maxHeartbeats 40000000 in
set_option maxRecDepth 8192 in
/-- The second window is its line of operations: the two functions' bodies stand at their calls, over the calls'
    buffers, and the sequencing reassociates, all by computation. -/
theorem part1_eq (c : Dev nD) : main_part1 (F := F) c = seq ops1 := rfl

/-- @main is the whole line. -/
theorem main_eq (c : Dev nD) : main (F := F) c = seq ops := by
  rw [show (ops : List (HloOp τ sig (Elt F))) = ops0 ++ ops1 from rfl, seq_append, ← part0_eq c, ← part1_eq c]
  rfl

/-! ## What the second window leaves, over any contents before it -/

section Second
variable (V : Valuation τ sig (Elt F))

set_option maxHeartbeats 4000000 in
set_option maxRecDepth 8192 in
/-- The new cell state: the retained part plus the mix gate's complement times the previous cell state. -/
theorem v51_1 : after ops1 V (main_v51 : DevRef τ sig) = addf (V (main_v47 : DevRef τ sig)) (mulf (V (main_v49 : DevRef τ sig)) (V (main_arg2 : DevRef τ sig))) := by
  after_results_simp

set_option maxHeartbeats 4000000 in
set_option maxRecDepth 8192 in
/-- The new hidden state: the logistic of the normalized output gate times the hyperbolic tangent of the new cell
    state. -/
theorem v77_1 : after ops1 V (main_v77 : DevRef τ sig)
    = mulf (RefTerm.sigR (RefTerm.lnR (V (main_v27 : DevRef τ sig)) (V (main_arg5 : DevRef τ sig)) (V (main_arg6 : DevRef τ sig))))
        (Host.tanh (addf (V (main_v47 : DevRef τ sig)) (mulf (V (main_v49 : DevRef τ sig)) (V (main_arg2 : DevRef τ sig))))) := by
  after_results_simp
  simp only [TRef.ofBuf_toBuf]
  rfl

set_option maxHeartbeats 4000000 in
set_option maxRecDepth 8192 in
theorem arg0_1 : after ops1 V (main_arg0 : DevRef τ sig) = V (main_arg0 : DevRef τ sig) := by
  after_results_simp

set_option maxHeartbeats 4000000 in
set_option maxRecDepth 8192 in
theorem arg1_1 : after ops1 V (main_arg1 : DevRef τ sig) = V (main_arg1 : DevRef τ sig) := by
  after_results_simp

set_option maxHeartbeats 4000000 in
set_option maxRecDepth 8192 in
theorem arg2_1 : after ops1 V (main_arg2 : DevRef τ sig) = V (main_arg2 : DevRef τ sig) := by
  after_results_simp

set_option maxHeartbeats 4000000 in
set_option maxRecDepth 8192 in
theorem arg3_1 : after ops1 V (main_arg3 : DevRef τ sig) = V (main_arg3 : DevRef τ sig) := by
  after_results_simp

set_option maxHeartbeats 4000000 in
set_option maxRecDepth 8192 in
theorem arg4_1 : after ops1 V (main_arg4 : DevRef τ sig) = V (main_arg4 : DevRef τ sig) := by
  after_results_simp

set_option maxHeartbeats 4000000 in
set_option maxRecDepth 8192 in
theorem arg5_1 : after ops1 V (main_arg5 : DevRef τ sig) = V (main_arg5 : DevRef τ sig) := by
  after_results_simp

set_option maxHeartbeats 4000000 in
set_option maxRecDepth 8192 in
theorem arg6_1 : after ops1 V (main_arg6 : DevRef τ sig) = V (main_arg6 : DevRef τ sig) := by
  after_results_simp

set_option maxHeartbeats 4000000 in
set_option maxRecDepth 8192 in
theorem arg7_1 : after ops1 V (main_arg7 : DevRef τ sig) = V (main_arg7 : DevRef τ sig) := by
  after_results_simp

end Second

/-! ## What the first window leaves -/

section First
variable (V : Valuation τ sig (Elt F))

/-- The gates' pre-activations from the arguments' contents. -/
abbrev gatesOf : FVec F S16384x5120 .f32 :=
  RefTerm.gatesR (V (main_arg0 : DevRef τ sig)) (V (main_arg1 : DevRef τ sig)) (V (main_arg3 : DevRef τ sig)) (V (main_arg4 : DevRef τ sig))

set_option maxHeartbeats 4000000 in
set_option maxRecDepth 8192 in
/-- The output gate's logistic. -/
theorem v27_0 : after ops0 V (main_v27 : DevRef τ sig) = RefTerm.sigR (RefTerm.band2 (gatesOf V)) := by
  after_results_simp
  rfl

set_option maxHeartbeats 4000000 in
set_option maxRecDepth 8192 in
/-- The retained part of the new cell state: the mix gate times the blend of the updated and the previous cell state. -/
theorem v47_0 : after ops0 V (main_v47 : DevRef τ sig)
    = mulf (RefTerm.sigR (RefTerm.band4 (gatesOf V)))
        (addf
          (mulf (addf (mulf (RefTerm.sigR (RefTerm.band0 (gatesOf V))) (V (main_arg2 : DevRef τ sig)))
                  (mulf (RefTerm.sigR (RefTerm.band1 (gatesOf V))) (Host.tanh (RefTerm.band3 (gatesOf V)))))
            (RefTerm.rowB (V (main_arg7 : DevRef τ sig))))
          (mulf (RefTerm.rowB (subf (broadcastInDim S1024 ![] bcast_S_S1024 (constant S_ .f32 0x3F800000#32)) (V (main_arg7 : DevRef τ sig))))
            (V (main_arg2 : DevRef τ sig)))) := by
  after_results_simp
  rfl

set_option maxHeartbeats 4000000 in
set_option maxRecDepth 8192 in
/-- The complement of the mix gate. -/
theorem v49_0 : after ops0 V (main_v49 : DevRef τ sig) = subf RefTerm.onesR (RefTerm.sigR (RefTerm.band4 (gatesOf V))) := by
  after_results_simp
  rfl

set_option maxHeartbeats 4000000 in
set_option maxRecDepth 8192 in
theorem arg0_0 : after ops0 V (main_arg0 : DevRef τ sig) = V (main_arg0 : DevRef τ sig) := by
  after_results_simp

set_option maxHeartbeats 4000000 in
set_option maxRecDepth 8192 in
theorem arg1_0 : after ops0 V (main_arg1 : DevRef τ sig) = V (main_arg1 : DevRef τ sig) := by
  after_results_simp

set_option maxHeartbeats 4000000 in
set_option maxRecDepth 8192 in
theorem arg2_0 : after ops0 V (main_arg2 : DevRef τ sig) = V (main_arg2 : DevRef τ sig) := by
  after_results_simp

set_option maxHeartbeats 4000000 in
set_option maxRecDepth 8192 in
theorem arg3_0 : after ops0 V (main_arg3 : DevRef τ sig) = V (main_arg3 : DevRef τ sig) := by
  after_results_simp

set_option maxHeartbeats 4000000 in
set_option maxRecDepth 8192 in
theorem arg4_0 : after ops0 V (main_arg4 : DevRef τ sig) = V (main_arg4 : DevRef τ sig) := by
  after_results_simp

set_option maxHeartbeats 4000000 in
set_option maxRecDepth 8192 in
theorem arg5_0 : after ops0 V (main_arg5 : DevRef τ sig) = V (main_arg5 : DevRef τ sig) := by
  after_results_simp

set_option maxHeartbeats 4000000 in
set_option maxRecDepth 8192 in
theorem arg6_0 : after ops0 V (main_arg6 : DevRef τ sig) = V (main_arg6 : DevRef τ sig) := by
  after_results_simp

set_option maxHeartbeats 4000000 in
set_option maxRecDepth 8192 in
theorem arg7_0 : after ops0 V (main_arg7 : DevRef τ sig) = V (main_arg7 : DevRef τ sig) := by
  after_results_simp

end First

/-! ## The two windows composed -/

section Whole
variable (V : Valuation τ sig (Elt F))

/-- The fold of the whole line is the second window's over the first's. -/
theorem after_ops (b : DevRef τ sig) : after ops V b = after ops1 (after ops0 V) b :=
  congrFun (after_append ops0 ops1 V) b

/-- The new cell state, as the staged term. -/
theorem out51_eq : after ops V (main_v51 : DevRef τ sig) = RefTerm.cnewR (gatesOf V) (V (main_arg2 : DevRef τ sig)) (V (main_arg7 : DevRef τ sig)) := by
  rw [after_ops, v51_1, v47_0, v49_0, arg2_0]
  rfl

/-- The new hidden state, as the staged term. -/
theorem out77_eq : after ops V (main_v77 : DevRef τ sig)
    = RefTerm.hnewR (gatesOf V) (V (main_arg2 : DevRef τ sig)) (V (main_arg5 : DevRef τ sig)) (V (main_arg6 : DevRef τ sig)) (V (main_arg7 : DevRef τ sig)) := by
  rw [after_ops, v77_1, v27_0, v47_0, v49_0, arg2_0, arg5_0, arg6_0]
  rfl

theorem arg0_eq : after ops V (main_arg0 : DevRef τ sig) = V (main_arg0 : DevRef τ sig) := by
  rw [after_ops, arg0_1, arg0_0]

theorem arg1_eq : after ops V (main_arg1 : DevRef τ sig) = V (main_arg1 : DevRef τ sig) := by
  rw [after_ops, arg1_1, arg1_0]

theorem arg2_eq : after ops V (main_arg2 : DevRef τ sig) = V (main_arg2 : DevRef τ sig) := by
  rw [after_ops, arg2_1, arg2_0]

theorem arg3_eq : after ops V (main_arg3 : DevRef τ sig) = V (main_arg3 : DevRef τ sig) := by
  rw [after_ops, arg3_1, arg3_0]

theorem arg4_eq : after ops V (main_arg4 : DevRef τ sig) = V (main_arg4 : DevRef τ sig) := by
  rw [after_ops, arg4_1, arg4_0]

theorem arg5_eq : after ops V (main_arg5 : DevRef τ sig) = V (main_arg5 : DevRef τ sig) := by
  rw [after_ops, arg5_1, arg5_0]

theorem arg6_eq : after ops V (main_arg6 : DevRef τ sig) = V (main_arg6 : DevRef τ sig) := by
  rw [after_ops, arg6_1, arg6_0]

theorem arg7_eq : after ops V (main_arg7 : DevRef τ sig) = V (main_arg7 : DevRef τ sig) := by
  rw [after_ops, arg7_1, arg7_0]

end Whole

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., binary_bufs_sub .., nullary_bufs_sub .., unary_bufs_sub .., binary_bufs_sub ..⟩

theorem ops1_sub : (ops1 : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
/-- Every operation of the first window determines its results. -/
theorem ops0_fresh : ∀ op ∈ (ops0 : List (HloOp τ sig (Elt F))), op.fresh = ∅ := by
  intro _ h; (repeat (cases h with | head => rfl | tail _ h => ?_)); exact nomatch h

set_option maxRecDepth 8192 in
/-- Every operation of the second window determines its results. -/
theorem ops1_fresh : ∀ op ∈ (ops1 : List (HloOp τ sig (Elt F))), op.fresh = ∅ := by
  intro _ h; (repeat (cases h with | head => rfl | tail _ h => ?_)); exact nomatch h

/-- On every device, for any float values, from any memory with zero counters: every weakly fair execution of @main
    terminates with each buffer at the fold of the 116 operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) (ops1_fresh op))

/-- On every device, for any float values, from any memory with zero counters: every weakly fair execution of @main
    terminates with the new hidden state and the new cell state at the staged terms of the arguments' launch
    contents, and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = RefTerm.hnewR (RefTerm.gatesR (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7))
      ∧ r.2.mem ((c.tc : Thread nD τ).loc main_v51) = RefTerm.cnewR (RefTerm.gatesR (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v77).trans (out77_eq _), (h c main_v51).trans (out51_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_after m ρ)

end Cert.ReferenceIdeal.RefRun

end
-- ==== Proof.LibCat2.lean ====
/-
  Two equal pieces joined along one axis, read at an index, for any element type and any extents.
  Two matrices [n, w] laid side by side make a matrix [n, W] with W = 2·w: its column g·w + q (g the piece, q the
  column inside the piece) at row k is piece g at (k, q).  Two matrices [n, w] stacked make a matrix [N, w] with
  N = 2·n: its row g·n + q at column c is piece g at (q, c).  Two vectors [w] laid end to end make a vector [W]:
  its element g·w + q is piece g at q.  Each is the library's reading of a concatenation at an index, with the
  extents of the pieces before piece g summed to g·w (or g·n).
-/
import Idealize.ShloMosaic.Lib.Pipeline.Value
import Idealize.ShloMosaic.Lib.ValueIdx

open Idealize.ShloMosaic Idealize.ShloMosaic.ValueIdx

namespace Cat2

variable {α : Type}

/-- Two [n, w] matrices side by side: column `g·w + q` of row `k` is piece `g` at `(k, q)`. -/
theorem cat2_cols_apply {n w W : ℕ} (x0 x1 : (⟨2, ![n, w]⟩ : Shape).Idx → α)
    (h : Shape.Concatenates [(⟨2, ![n, w]⟩ : Shape), ⟨2, ![n, w]⟩] ⟨2, ![n, W]⟩ (1 : Fin 2))
    (g : Fin 2) (k : Fin n) (q : Fin w) (c : Fin W) (hc : c.val = g.val * w + q.val) :
    concatenate (⟨2, ![n, W]⟩ : Shape) (1 : Fin 2)
        [⟨(⟨2, ![n, w]⟩ : Shape), x0⟩, ⟨(⟨2, ![n, w]⟩ : Shape), x1⟩] h (ix2 k c)
      = (![x0, x1] g) (ix2 k q) := by
  refine concatenate_apply_piece (t := (⟨2, ![n, W]⟩ : Shape)) (1 : Fin 2)
    [⟨(⟨2, ![n, w]⟩ : Shape), x0⟩, ⟨(⟨2, ![n, w]⟩ : Shape), x1⟩] h (ix2 k c) g.val g.isLt (⟨2, ![n, w]⟩ : Shape) (![x0, x1] g) ?_ rfl
    (g.val * w) ?_ (ix2 k q) ?_ ?_
  · fin_cases g <;> rfl
  · fin_cases g <;> simp
  · intro b hb
    match b with
    | ⟨0, _⟩ => rfl
    | ⟨1, _⟩ => exact absurd rfl hb
  · show g.val * w + q.val = c.val
    omega

/-- Two [n, w] matrices stacked: row `g·n + q` at column `c` is piece `g` at `(q, c)`. -/
theorem cat2_rows_apply {n w N : ℕ} (x0 x1 : (⟨2, ![n, w]⟩ : Shape).Idx → α)
    (h : Shape.Concatenates [(⟨2, ![n, w]⟩ : Shape), ⟨2, ![n, w]⟩] ⟨2, ![N, w]⟩ (0 : Fin 2))
    (g : Fin 2) (q : Fin n) (c : Fin w) (r : Fin N) (hr : r.val = g.val * n + q.val) :
    concatenate (⟨2, ![N, w]⟩ : Shape) (0 : Fin 2)
        [⟨(⟨2, ![n, w]⟩ : Shape), x0⟩, ⟨(⟨2, ![n, w]⟩ : Shape), x1⟩] h (ix2 r c)
      = (![x0, x1] g) (ix2 q c) := by
  refine concatenate_apply_piece (t := (⟨2, ![N, w]⟩ : Shape)) (0 : Fin 2)
    [⟨(⟨2, ![n, w]⟩ : Shape), x0⟩, ⟨(⟨2, ![n, w]⟩ : Shape), x1⟩] h (ix2 r c) g.val g.isLt (⟨2, ![n, w]⟩ : Shape) (![x0, x1] g) ?_ rfl
    (g.val * n) ?_ (ix2 q c) ?_ ?_
  · fin_cases g <;> rfl
  · fin_cases g <;> simp
  · intro b hb
    match b with
    | ⟨0, _⟩ => exact absurd rfl hb
    | ⟨1, _⟩ => rfl
  · show g.val * n + q.val = r.val
    omega

/-- Two [w] vectors end to end: element `g·w + q` is piece `g` at `q`. -/
theorem cat2_vec_apply {w W : ℕ} (x0 x1 : (⟨1, ![w]⟩ : Shape).Idx → α)
    (h : Shape.Concatenates [(⟨1, ![w]⟩ : Shape), ⟨1, ![w]⟩] ⟨1, ![W]⟩ (0 : Fin 1))
    (g : Fin 2) (q : Fin w) (c : Fin W) (hc : c.val = g.val * w + q.val) :
    concatenate (⟨1, ![W]⟩ : Shape) (0 : Fin 1)
        [⟨(⟨1, ![w]⟩ : Shape), x0⟩, ⟨(⟨1, ![w]⟩ : Shape), x1⟩] h (ix1 c)
      = (![x0, x1] g) (ix1 q) := by
  refine concatenate_apply_piece (t := (⟨1, ![W]⟩ : Shape)) (0 : Fin 1)
    [⟨(⟨1, ![w]⟩ : Shape), x0⟩, ⟨(⟨1, ![w]⟩ : Shape), x1⟩] h (ix1 c) g.val g.isLt (⟨1, ![w]⟩ : Shape) (![x0, x1] g) ?_ rfl
    (g.val * w) ?_ (ix1 q) ?_ ?_
  · fin_cases g <;> rfl
  · fin_cases g <;> simp
  · intro b hb
    match b with
    | ⟨0, _⟩ => exact absurd rfl hb
  · show g.val * w + q.val = c.val
    omega

end Cat2
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.RefRead.lean ====
/-
  The reference's staged term read one element at a time.

  Reading each stage at an index turns the host's array operations into the row formula of the specification:

  * a matrix times a matrix is, at `(r, c)`, the sum over the 2048 contraction indices; the left factor is x and h laid side
    by side, so the first 1024 terms meet x's row and the weight matrix's upper half and the last 1024 meet h's row and the
    lower half — the one place where a law of algebra is used, the sum split in two;
  * a band of the pre-activations at column offset 1024·g reads column 1024·g + q; the host's 1 / (1 + exp (−z)) is the
    logistic function; a vector broadcast as a row reads its entry at the column, a column broadcast along the row reads
    its entry at the row; a row sum is the initial zero plus the sum of the row's entries;
  * the variance's divisor is 1024 minus the integer 0, that is 1024, which is positive, so the guard takes the quotient.
-/
import proofs.«151947_j82867099009371_2_alg».proof.Proof.RefTerm
import proofs.«151947_j82867099009371_2_alg».proof.Proof.ArraySpec
import proofs.«151947_j82867099009371_2_alg».proof.Proof.LibDotRows
import proofs.«151947_j82867099009371_2_alg».proof.Proof.LibCat2
import proofs.«151947_j82867099009371_2_alg».proof.Proof.LibHostLayout
import Idealize.ShloMosaic.Lib.ValueLayout
import Idealize.ShloMosaic.Lib.IdealHost

noncomputable section

open scoped BigOperators

namespace Cert.ReferenceIdeal.RefRead

open Cert.ReferenceIdeal Cert.ReferenceIdeal.Facts₀ Cert.ReferenceIdeal.Facts Cert.ReferenceIdeal.RefTerm Idealize.ShloMosaic
  Idealize.ShloMosaic.ValueIdx

/-! ## The constants -/

/-- The pattern 0x44800000 is the real 1024. -/
theorem rowLen_eq : GatedCell.rowLen = ((1024 : ℝ) : EReal) := by
  simp [GatedCell.rowLen, Ideal.ofBits, Ideal.ieee, -EReal.coe_mul]; norm_num

theorem rowLen_pos : (0 : EReal) < GatedCell.rowLen := by
  rw [rowLen_eq]; exact_mod_cast (by norm_num : (0 : ℝ) < 1024)

/-! ## The pointwise and layout stages -/

theorem onesR_apply (i : S16384x1024.Idx) : onesR (F := Ideal) i = GatedCell.one := by
  unfold onesR; rw [broadcastInDim_scalar_apply, constant_apply]

theorem sigR_apply (z : FVec Ideal S16384x1024 .f32) (i : S16384x1024.Idx) : sigR z i = Ideal.logistic (z i) := by
  unfold sigR
  rw [hostDivf_apply, addf_apply, onesR_apply]
  show Ideal.div GatedCell.one (GatedCell.one + Ideal.exp (-(z i))) = Ideal.logistic (z i)
  rw [show GatedCell.one = (1 : EReal) from Ideal.ofBits_one_f32]
  rfl

theorem tanhR_apply (z : FVec Ideal S16384x1024 .f32) (i : S16384x1024.Idx) : Host.tanh z i = Ideal.tanh (z i) := rfl

theorem rowB_apply (v : FVec Ideal S1024 .f32) (r : Fin 16384) (q : Fin 1024) : rowB v (ix2 r q) = v (ix1 q) := by
  unfold rowB; exact broadcastInDim_vec_rows_apply v _ _ r q

theorem colB_apply (v : FVec Ideal S16384x1 .f32) (r : Fin 16384) (q : Fin 1024) :
    colB v (ix2 r q) = v (ix2 r (0 : Fin 1)) := by
  unfold colB; exact broadcastInDim_col_apply v _ r q

theorem band0_apply (g : FVec Ideal S16384x5120 .f32) (r : Fin 16384) (q : Fin 1024) :
    band0 g (ix2 r q) = g (ix2 r (GatedCell.col 0 q)) := by
  unfold band0; exact slice2_axis1_apply 0 g _ r q (GatedCell.col 0 q) rfl
theorem band1_apply (g : FVec Ideal S16384x5120 .f32) (r : Fin 16384) (q : Fin 1024) :
    band1 g (ix2 r q) = g (ix2 r (GatedCell.col 1 q)) := by
  unfold band1; exact slice2_axis1_apply 1024 g _ r q (GatedCell.col 1 q) rfl
theorem band2_apply (g : FVec Ideal S16384x5120 .f32) (r : Fin 16384) (q : Fin 1024) :
    band2 g (ix2 r q) = g (ix2 r (GatedCell.col 2 q)) := by
  unfold band2; exact slice2_axis1_apply 2048 g _ r q (GatedCell.col 2 q) rfl
theorem band3_apply (g : FVec Ideal S16384x5120 .f32) (r : Fin 16384) (q : Fin 1024) :
    band3 g (ix2 r q) = g (ix2 r (GatedCell.col 3 q)) := by
  unfold band3; exact slice2_axis1_apply 3072 g _ r q (GatedCell.col 3 q) rfl
theorem band4_apply (g : FVec Ideal S16384x5120 .f32) (r : Fin 16384) (q : Fin 1024) :
    band4 g (ix2 r q) = g (ix2 r (GatedCell.col 4 q)) := by
  unfold band4; exact slice2_axis1_apply 4096 g _ r q (GatedCell.col 4 q) rfl

/-! ## The pre-activations -/

section gates

variable (x h : FVec Ideal S16384x1024 .f32) (W : FVec Ideal S2048x5120 .f32) (b : FVec Ideal S5120 .f32)

theorem gatesR_apply (r : Fin 16384) (c : Fin 5120) :
    gatesR x h W b (ix2 r c) = GatedCell.pre (GatedCell.rowAt x r) (GatedCell.rowAt h r) (GatedCell.upper W) (GatedCell.lower W) (GatedCell.entries b) c := by
  unfold gatesR GatedCell.pre
  rw [addf_apply, broadcastInDim_vec_rows_apply]
  have e : Host.dotGeneral dot_S16384x2048_S2048x5120_S16384x5120_1_0_0_1_n_n none
        (concatenate S16384x2048 1 [⟨S16384x1024, x⟩, ⟨S16384x1024, h⟩] concatenates_S16384x1024_S16384x1024_S16384x2048_d1) W
        (ix2 r c)
      = ∑ k : Fin 2048,
          concatenate S16384x2048 1 [⟨S16384x1024, x⟩, ⟨S16384x1024, h⟩] concatenates_S16384x1024_S16384x1024_S16384x2048_d1
              (ix2 r k) * W (ix2 k c) :=
    dotGeneral_rows dot_S16384x2048_S2048x5120_S16384x5120_1_0_0_1_n_n none _ rfl rfl (fun _ _ => rfl) (fun _ _ => rfl)
      (fun _ _ => rfl) (fun _ _ => rfl) _ W r c
  rw [e, GatedCell.sum_halves]
  refine congrArg₂ (fun s t : EReal => s + t + b (ix1 c)) (Finset.sum_congr rfl fun k _ => ?_)
    (Finset.sum_congr rfl fun k _ => ?_)
  · rw [Cat2.cat2_cols_apply x h _ (0 : Fin 2) r k ⟨k.val, by have := k.isLt; omega⟩ (by show k.val = 0 * 1024 + k.val; omega)]
    rfl
  · rw [Cat2.cat2_cols_apply x h _ (1 : Fin 2) r k ⟨1024 + k.val, by have := k.isLt; omega⟩
      (by show 1024 + k.val = 1 * 1024 + k.val; omega)]
    rfl

end gates

/-! ## Row sums, mean and variance -/

theorem colSumR_apply (z : FVec Ideal S16384x1024 .f32) (r : Fin 16384) (u : Fin 1) :
    colSumR z (ix2 r u) = ∑ k : Fin 1024, z (ix2 r k) := by
  unfold colSumR
  rw [broadcastInDim_vec_col_apply, hostRowSum_apply z _ _ (by decide) _ r, constant_apply, Ideal.ofBits_zero_f32, zero_add]

theorem meanR_apply (z : FVec Ideal S16384x1024 .f32) (r : Fin 16384) (u : Fin 1) :
    meanR z (ix2 r u) = Ideal.div (∑ k : Fin 1024, z (ix2 r k)) GatedCell.rowLen := by
  unfold meanR
  rw [hostDivf_apply, colSumR_apply, broadcastInDim_scalar_apply, constant_apply]

/-- The variance's divisor, 1024 minus the integer 0, is 1024. -/
theorem dofR_ix0 : dofR (F := Ideal) ix0 = GatedCell.rowLen := by
  unfold dofR
  rw [subf_apply, constant_apply, sitofp_apply, constantI_apply]
  show GatedCell.rowLen - (((0#32 : BitVec 32).toInt : ℝ) : EReal) = GatedCell.rowLen
  simp

theorem varR_apply (z : FVec Ideal S16384x1024 .f32) (r : Fin 16384) (u : Fin 1) :
    varR z (ix2 r u)
      = Ideal.div (∑ k : Fin 1024, (z (ix2 r k) - Ideal.div (∑ k : Fin 1024, z (ix2 r k)) GatedCell.rowLen)
          * (z (ix2 r k) - Ideal.div (∑ k : Fin 1024, z (ix2 r k)) GatedCell.rowLen)) GatedCell.rowLen := by
  unfold varR
  rw [select_apply, broadcastInDim_scalar_apply, cmpf_apply, dofR_ix0, constant_apply, Ideal.ofBits_zero_f32]
  have hc : FloatOps.cmpf (F := Ideal) (φ := .f32) .ogt GatedCell.rowLen 0 = 1#1 := by
    show Ideal.cmp .ogt GatedCell.rowLen 0 = 1#1
    unfold Ideal.cmp
    simp [rowLen_pos]
  rw [hc, select_one, hostDivf_apply, colSumR_apply, broadcastInDim_scalar_apply, dofR_ix0]
  refine congrArg (fun s => Ideal.div s GatedCell.rowLen) (Finset.sum_congr rfl fun k _ => ?_)
  rw [mulf_apply, subf_apply, colB_apply, meanR_apply]

theorem lnR_apply (z : FVec Ideal S16384x1024 .f32) (gamma beta : FVec Ideal S1024 .f32) (r : Fin 16384) (q : Fin 1024) :
    lnR z gamma beta (ix2 r q)
      = (z (ix2 r q) - Ideal.div (∑ k : Fin 1024, z (ix2 r k)) GatedCell.rowLen)
          * Ideal.rsqrt (Ideal.div (∑ k : Fin 1024, (z (ix2 r k) - Ideal.div (∑ k : Fin 1024, z (ix2 r k)) GatedCell.rowLen)
              * (z (ix2 r k) - Ideal.div (∑ k : Fin 1024, z (ix2 r k)) GatedCell.rowLen)) GatedCell.rowLen + GatedCell.eps)
          * gamma (ix1 q) + beta (ix1 q) := by
  unfold lnR
  rw [addf_apply, mulf_apply, mulf_apply, subf_apply, colB_apply, meanR_apply, colB_apply, rowB_apply, rowB_apply]
  show _ * Ideal.rsqrt (varR z (ix2 r (0 : Fin 1)) + broadcastInDim S16384x1 ![] bcast_S_S16384x1 (constant (F := Ideal) S_ .f32 0x3727C5AC#32) (ix2 r (0 : Fin 1))) * _ + _ = _
  rw [varR_apply, broadcastInDim_scalar_apply, constant_apply]

/-! ## The two results -/

section results

variable (x h cp : FVec Ideal S16384x1024 .f32) (W : FVec Ideal S2048x5120 .f32) (b : FVec Ideal S5120 .f32)
  (gamma beta ret : FVec Ideal S1024 .f32)

theorem cnewR_apply (r : Fin 16384) (q : Fin 1024) :
    cnewR (gatesR x h W b) cp ret (ix2 r q) = GatedCell.cellAt x h cp W b ret r q := by
  unfold cnewR
  simp only [addf_apply, mulf_apply, subf_apply, sigR_apply, tanhR_apply, band0_apply, band1_apply, band3_apply, band4_apply,
    rowB_apply, onesR_apply, broadcastInDim_scalar_apply, constant_apply, gatesR_apply]
  rfl

theorem hnewR_apply (r : Fin 16384) (q : Fin 1024) :
    hnewR (gatesR x h W b) cp gamma beta ret (ix2 r q) = GatedCell.hiddenAt x h cp W b gamma beta ret r q := by
  unfold hnewR
  rw [mulf_apply, sigR_apply, tanhR_apply, lnR_apply, cnewR_apply]
  have ho : ∀ k : Fin 1024, sigR (band2 (gatesR x h W b)) (ix2 r k) = GatedCell.og (GatedCell.rowAt x r) (GatedCell.rowAt h r) (GatedCell.upper W) (GatedCell.lower W) (GatedCell.entries b) k := fun k => by
    rw [sigR_apply, band2_apply, gatesR_apply]; rfl
  simp only [ho]
  rfl

/-- The reference's new cell state is the specification's array. -/
theorem cnewR_eq : cnewR (gatesR x h W b) cp ret = GatedCell.cellArr x h cp W b ret := by
  funext i
  rw [eq_ix2 i]
  exact cnewR_apply x h cp W b ret (i 0) (i 1)

/-- The reference's new hidden state is the specification's array. -/
theorem hnewR_eq : hnewR (gatesR x h W b) cp gamma beta ret = GatedCell.hiddenArr x h cp W b gamma beta ret := by
  funext i
  rw [eq_ix2 i]
  exact hnewR_apply x h cp W b gamma beta ret (i 0) (i 1)

end results

end Cert.ReferenceIdeal.RefRead

end
-- ==== Proof.lean ====
/-
  A gated recurrent cell with a normalized output gate: the kernel against its reference, over the extended reals.

  Both programs take x, the previous hidden state h and the previous cell state c (each 16384 × 1024), the weight
  matrix W (2048 × 5120), the bias b (5120) and the scale γ, shift β and retention ρ (1024 each).  Row by row they form
  the five gates' pre-activations [x | h] · W + b, the gates f, i, o, m (logistic) and the candidate g (tanh), the new
  cell state  c' = m · ((f · c + i · g) · ρ + (1 − ρ) · c) + (1 − m) · c,  and the new hidden state
  h' = logistic((o − mean o) · rsqrt(var o + ε) · γ + β) · tanh c',  mean and variance taken over each row of o.

  The kernel works on 256 rows per grid point and multiplies x by the upper half of W and h by the lower half, adding
  the two products; the reference multiplies the rows of x and h laid side by side by all of W.  A sum over 2048 indices
  is the sum over the first 1024 plus the sum over the last 1024 in any commutative monoid, so the two agree on every
  extended real, finite or not: the precondition is never opened.  Narrowing to 16 bits is the identity at the ideal
  values; the kernel's logistic and the host's 1 / (1 + exp (−z)) are one function there; the reference's variance divides
  by 1024 − 0 under the guard 1024 − 0 > 0, which holds.

  The kernel's two result arrays are read off its run block by block (module KernelArray, over BlockValue), the
  reference's off its run as a staged term (RefRun, RefTerm) read one element at a time (RefRead); both are the arrays of
  the row specification (Spec, ArraySpec).  Nothing was rewritten when the kernel was idealized, so its idealization is its own
  text read at the ideal values.
-/
import proofs.«151947_j82867099009371_2_alg».proof.Defs
import proofs.«151947_j82867099009371_2_alg».proof.Proof.Gen.Kernel
import proofs.«151947_j82867099009371_2_alg».proof.Proof.Gen.Kernel.Skeleton
import proofs.«151947_j82867099009371_2_alg».proof.Proof.Gen.Kernel.Launch
import proofs.«151947_j82867099009371_2_alg».proof.Proof.Gen.Kernel.Points
import proofs.«151947_j82867099009371_2_alg».proof.Proof.Gen.Kernel.Frame
import proofs.«151947_j82867099009371_2_alg».proof.Proof.Gen.KernelIdeal
import proofs.«151947_j82867099009371_2_alg».proof.Proof.Gen.KernelIdeal.Skeleton
import proofs.«151947_j82867099009371_2_alg».proof.Proof.Gen.KernelIdeal.Launch
import proofs.«151947_j82867099009371_2_alg».proof.Proof.Gen.KernelIdeal.Points
import proofs.«151947_j82867099009371_2_alg».proof.Proof.Gen.KernelIdeal.Frame
import proofs.«151947_j82867099009371_2_alg».proof.Proof.Gen.KernelIdeal.Value
import proofs.«151947_j82867099009371_2_alg».proof.Proof.Gen.ReferenceIdeal
import proofs.«151947_j82867099009371_2_alg».proof.Proof.Gen.Pre_finite_inputs
import proofs.«151947_j82867099009371_2_alg».proof.Proof.KernelArray
import proofs.«151947_j82867099009371_2_alg».proof.Proof.RefRun
import proofs.«151947_j82867099009371_2_alg».proof.Proof.RefRead
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- Nothing was rewritten when the kernel was idealized. -/
theorem preserves : Cert.preserves_Kernel_KernelIdeal := trivial

/-- From memories that agree on the eight arguments both programs end with the new hidden state and the new cell state
    of the row specification. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7⟩ := hagree c
    rw [Cert.ReferenceIdeal.RefRead.hnewR_eq, a0, a1, a2, a3, a4, a5, a6, a7]
  · obtain ⟨a0, a1, a2, a3, a4, a5, a6, a7⟩ := hagree c
    rw [Cert.ReferenceIdeal.RefRead.cnewR_eq, a0, a1, a2, a3, a4, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
